-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x2048x1024 .f32) (main_arg1 : FVec F S8x2048x1024 .f32) (main_arg2 : IVec S8x2048x2048 32) (main_arg3 : FVec F S1024x1024 .f32) (main_arg4 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .i32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x512, .i32⟩
  | .local _ .vmem, ⟨7, _⟩ => ⟨S1x512x512, .i32⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_25 : BitVec 32 := 0#32
  let v49 : BitVec 1 := Scalar.cmpi .ne v48 c0_i32_25
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x1024_p1_0_S1024x512 : S512x1024.Transposes [1, 0] S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .f32 = 32 ∨ (Rect.block (s := S8x2048x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S8x2048x2048.size a
  hwx0_4 : ∀ i : grid0.Coords, EltTy.bits .i32 = 32 ∨ (Rect.block (s := S8x2048x2048) S1x512x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .f32 = 32 ∨ (Rect.block (s := S8x2048x1024) S1x512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .i32⟩
  | .hbm, ⟨3, _⟩ => ⟨S1024x1024, .f32⟩
  | .hbm, ⟨4, _⟩ => ⟨S1024, .f32⟩
  | .hbm, ⟨5, _⟩ => ⟨S8x2048x1024, .f32⟩
  | .hbm, ⟨6, _⟩ => ⟨S1x1x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.AttnKeys.lean ====
/-
  The arithmetic of the grid: point `n` of the 8 · 4 · 4 grid is batch `n / 16`, block `(n / 4) % 4` of 512 query rows and
  block `n % 4` of 512 keys.  The functions are total (wrapped) so that they can be rewritten without bound proofs; inside
  the grid they are the plain quotients.
-/
import Mathlib.Tactic

namespace Cert.AttnKeys

/-- The batch of point `n`. -/
def bOf (n : ℕ) : Fin 8 := ⟨(n / 16) % 8, Nat.mod_lt _ (by norm_num)⟩

theorem bOf_val (n : ℕ) (h : n < 128) : (bOf n).val = n / 16 := by
  show (n / 16) % 8 = n / 16
  exact Nat.mod_eq_of_lt (by omega)

/-- The query row of the array that row `r` of point `n`'s block is. -/
def qRow (n : ℕ) (r : Fin 512) : Fin 2048 := ⟨512 * ((n / 4) % 4) + r.val, by have := r.isLt; omega⟩

theorem qRow_val (n : ℕ) (r : Fin 512) : (qRow n r).val = 512 * ((n / 4) % 4) + r.val := rfl

/-- The `k`-th key of block `j`. -/
def key (j : ℕ) (k : Fin 512) : Fin 2048 := ⟨(512 * j + k.val) % 2048, Nat.mod_lt _ (by norm_num)⟩

theorem key_val (j : ℕ) (hj : j ≤ 3) (k : Fin 512) : (key j k).val = 512 * j + k.val := by
  have := k.isLt
  show (512 * j + k.val) % 2048 = _
  exact Nat.mod_eq_of_lt (by omega)

/-- Within a run of four points the batch does not change … -/
theorem bOf_succ (n : ℕ) (h : (n + 1) % 4 ≠ 0) : bOf (n + 1) = bOf n :=
  Fin.ext (by show ((n + 1) / 16) % 8 = (n / 16) % 8; congr 1; omega)

/-- … nor does the block of query rows … -/
theorem qRow_succ (n : ℕ) (h : (n + 1) % 4 ≠ 0) (r : Fin 512) : qRow (n + 1) r = qRow n r :=
  Fin.ext (by show 512 * (((n + 1) / 4) % 4) + r.val = 512 * ((n / 4) % 4) + r.val; congr 2; omega)

/-- … and the block of keys moves on by one. -/
theorem mod_succ (n : ℕ) (h : (n + 1) % 4 ≠ 0) : (n + 1) % 4 = n % 4 + 1 := by omega

end Cert.AttnKeys
-- ==== Proof.KernelBlocks.lean ====
/-
  Where each block sits in its array.

  The grid has 8 · 4 · 4 points; point `t` is batch `t / 16`, block `(t / 4) % 4` of 512 query rows and block `t % 4` of 512
  keys.  At that point the query window holds rows `512 · ((t / 4) % 4) + r` of the batch, the memory window rows
  `512 · (t % 4) + k`, the mask window the rows and keys of both, the weights and the bias whole; the result window is the
  block of the query rows.
-/
import proofs.«140894_j29884382446446_2_alg».proof.Proof.Gen.KernelIdeal.Frame
import proofs.«140894_j29884382446446_2_alg».proof.Proof.AttnKeys
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.AttnKeys

variable (m : (ℓ : Loc nD τ sig) → Buf (Elt Ideal) ℓ)

theorem hN : cfg0.N = 128 := N_0

/-- The printed index maps, decided over the grid. -/
theorem idx_facts : ∀ t : Fin cfg0.N,
    win0_0.index t (0 : Fin 3) = t.val / 16 ∧ win0_0.index t (1 : Fin 3) = (t.val / 4) % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 16 ∧ win0_3.index t (1 : Fin 3) = t.val % 4 ∧ win0_3.index t (2 : Fin 3) = 0
    ∧ win0_4.index t (0 : Fin 3) = t.val / 16 ∧ win0_4.index t (1 : Fin 3) = (t.val / 4) % 4 ∧ win0_4.index t (2 : Fin 3) = t.val % 4
    ∧ win0_5.index t (0 : Fin 3) = t.val / 16 ∧ win0_5.index t (1 : Fin 3) = (t.val / 4) % 4 ∧ win0_5.index t (2 : Fin 3) = 0 :=
  (by decide +kernel : ∀ t : Fin grid0.N, _)

/-- The query block at point `t`. -/
theorem query_apply (c : Dev nD) (t : Fin cfg0.N) (r : Fin 512) (i : Fin 1024) :
    (iblk m c 0 t : Vec Ideal S1x512x1024 .f32) (ix3 (0 : Fin 1) r i)
      = m ((c : Thread nD τ).loc main_arg0) (ix3 (bOf t.val) (qRow t.val r) i) := by
  obtain ⟨e0, e1, e2, -⟩ := idx_facts t
  show V m c main_arg0 (((cfg0.win 0).blk t).view.emb (ix3 (0 : Fin 1) r i)) = _
  rw [V_main_arg0]
  refine congrArg _ (funext fun a => Fin.ext ?_)
  match a with
  | ⟨0, _⟩ => show win0_0.index t (0 : Fin 3) * 1 + 1 * 0 = (bOf t.val).val; rw [bOf_val t.val (lt_of_lt_of_eq t.isLt hN)]; omega
  | ⟨1, _⟩ => show win0_0.index t (1 : Fin 3) * 512 + 1 * r.val = 512 * ((t.val / 4) % 4) + r.val; omega
  | ⟨2, _⟩ => show win0_0.index t (2 : Fin 3) * 1024 + 1 * i.val = i.val; omega

end Cert.KernelIdeal.Blocks

end
-- ==== Proof.KernelPieces.lean ====
import proofs.«140894_j29884382446446_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-! What each case of the body leaves in the carried scratch and in the output block, as the body's own arithmetic
    applied to the point's input blocks and to what the point before left: one equation per found piece. -/

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A_0 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0_0 i) (hc1 : ¬cond0_1 i) (x0 : Vec F S1x512x1024 .f32) (x1 : Vec F S1024x1024 .f32) (x2 : Vec F S1x1024 .f32) (x3 : Vec F S1x512x1024 .f32) (x4 : Vec F S1x512x512 .i32) :
    sout0_A_0 c i arg3 harg3 arg4 harg4 arg5 harg5 arg6 harg6 arg7 harg7 arg8 harg8 arg9 harg9 arg10 harg10 arg11 harg11 arg12 harg12 hc0 hc1 x0 x1 x2 x3 x4 = (k0_pay4 x0 x1 x2) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_unit_zero hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_A_1 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0_0 i) (hc1 : ¬cond0_1 i) (x0 : Vec F S1x512x1024 .f32) (x1 : Vec F S1024x1024 .f32) (x2 : Vec F S1x1024 .f32) (x3 : Vec F S1x512x1024 .f32) (x4 : Vec F S1x512x512 .i32) :
    sout0_A_1 c i arg3 harg3 arg4 harg4 arg5 harg5 arg6 harg6 arg7 harg7 arg8 harg8 arg9 harg9 arg10 harg10 arg11 harg11 arg12 harg12 hc0 hc1 x0 x1 x2 x3 x4 = k0_pay2 (k0_pay10 (k0_pay4 x0 x1 x2) x3 x4 (k0_pay5 (F := F))) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S512x1) hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_A_2 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0_0 i) (hc1 : ¬cond0_1 i) (x0 : Vec F S1x512x1024 .f32) (x1 : Vec F S1024x1024 .f32) (x2 : Vec F S1x1024 .f32) (x3 : Vec F S1x512x1024 .f32) (x4 : Vec F S1x512x512 .i32) :
    sout0_A_2 c i arg3 harg3 arg4 harg4 arg5 harg5 arg6 harg6 arg7 harg7 arg8 harg8 arg9 harg9 arg10 harg10 arg11 harg11 arg12 harg12 hc0 hc1 x0 x1 x2 x3 x4 = k0_pay13 (k0_pay4 x0 x1 x2) x3 x4 (k0_pay5 (F := F)) (k0_pay6 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S512x1) hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_A_3 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0_0 i) (hc1 : ¬cond0_1 i) (x0 : Vec F S1x512x1024 .f32) (x1 : Vec F S1024x1024 .f32) (x2 : Vec F S1x1024 .f32) (x3 : Vec F S1x512x1024 .f32) (x4 : Vec F S1x512x512 .i32) :
    sout0_A_3 c i arg3 harg3 arg4 harg4 arg5 harg5 arg6 harg6 arg7 harg7 arg8 harg8 arg9 harg9 arg10 harg10 arg11 harg11 arg12 harg12 hc0 hc1 x0 x1 x2 x3 x4 = k0_pay1 (k0_pay8 x3) (k0_pay11 (k0_pay4 x0 x1 x2) x3 x4 (k0_pay5 (F := F))) (k0_pay12 (k0_pay4 x0 x1 x2) x3 x4 (k0_pay5 (F := F))) (k0_pay7 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S512x1024) hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_B_1 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : ¬cond0_1 i) (x0 : Vec F S1x512x1024 .f32) (x1 : Vec F S1024x1024 .f32) (x2 : Vec F S1x1024 .f32) (x3 : Vec F S1x512x1024 .f32) (x4 : Vec F S1x512x512 .i32) (xs0 : Vec F S512x1024 .f32) (xs1 : Vec F S512x1 .f32) (xs2 : Vec F S512x1 .f32) (xs3 : Vec F S512x1024 .f32) :
    sout0_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay2 (k0_pay10 xs0 x3 x4 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun0_B
  dsimp only
  sl_unfold_words
  rw [View.canon_unit_zero hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_B_2 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : ¬cond0_1 i) (x0 : Vec F S1x512x1024 .f32) (x1 : Vec F S1024x1024 .f32) (x2 : Vec F S1x1024 .f32) (x3 : Vec F S1x512x1024 .f32) (x4 : Vec F S1x512x512 .i32) (xs0 : Vec F S512x1024 .f32) (xs1 : Vec F S512x1 .f32) (xs2 : Vec F S512x1 .f32) (xs3 : Vec F S512x1024 .f32) :
    sout0_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay13 xs0 x3 x4 xs1 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun0_B
  dsimp only
  sl_unfold_words
  rw [View.canon_unit_zero hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_B_3 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : ¬cond0_1 i) (x0 : Vec F S1x512x1024 .f32) (x1 : Vec F S1024x1024 .f32) (x2 : Vec F S1x1024 .f32) (x3 : Vec F S1x512x1024 .f32) (x4 : Vec F S1x512x512 .i32) (xs0 : Vec F S512x1024 .f32) (xs1 : Vec F S512x1 .f32) (xs2 : Vec F S512x1 .f32) (xs3 : Vec F S512x1024 .f32) :
    sout0_B_3 c i arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay1 (k0_pay8 x3) (k0_pay11 xs0 x3 x4 xs1) (k0_pay12 xs0 x3 x4 xs1) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun0_B
  dsimp only
  sl_unfold_words
  rw [View.canon_unit_zero hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_C_1 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : cond0_1 i) (x0 : Vec F S1x512x1024 .f32) (x1 : Vec F S1024x1024 .f32) (x2 : Vec F S1x1024 .f32) (x3 : Vec F S1x512x1024 .f32) (x4 : Vec F S1x512x512 .i32) (xs0 : Vec F S512x1024 .f32) (xs1 : Vec F S512x1 .f32) (xs2 : Vec F S512x1 .f32) (xs3 : Vec F S512x1024 .f32) :
    sout0_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay2 (k0_pay10 xs0 x3 x4 xs1) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun0_C
  dsimp only
  sl_unfold_words
  rw [View.canon_unit_zero hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_C_2 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : cond0_1 i) (x0 : Vec F S1x512x1024 .f32) (x1 : Vec F S1024x1024 .f32) (x2 : Vec F S1x1024 .f32) (x3 : Vec F S1x512x1024 .f32) (x4 : Vec F S1x512x512 .i32) (xs0 : Vec F S512x1024 .f32) (xs1 : Vec F S512x1 .f32) (xs2 : Vec F S512x1 .f32) (xs3 : Vec F S512x1024 .f32) :
    sout0_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay13 xs0 x3 x4 xs1 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun0_C
  dsimp only
  sl_unfold_words
  rw [View.canon_unit_zero hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem sout_C_3 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : cond0_1 i) (x0 : Vec F S1x512x1024 .f32) (x1 : Vec F S1024x1024 .f32) (x2 : Vec F S1x1024 .f32) (x3 : Vec F S1x512x1024 .f32) (x4 : Vec F S1x512x512 .i32) (xs0 : Vec F S512x1024 .f32) (xs1 : Vec F S512x1 .f32) (xs2 : Vec F S512x1 .f32) (xs3 : Vec F S512x1024 .f32) :
    sout0_C_3 c i arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay1 (k0_pay8 x3) (k0_pay11 xs0 x3 x4 xs1) (k0_pay12 xs0 x3 x4 xs1) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun0_C
  dsimp only
  sl_unfold_words
  rw [View.canon_unit_zero hz2]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

theorem out_C_5 (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S1x512x512 .i32) (harg7 : arg7.IsWhole) (arg8 : Memref sig .tc .vmem S1x512x1024 .f32) (harg8 : arg8.IsWhole) (arg9 : Memref sig .tc .vmem S512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0_0 i) (hc1 : cond0_1 i) (x0 : Vec F S1x512x1024 .f32) (x1 : Vec F S1024x1024 .f32) (x2 : Vec F S1x1024 .f32) (x3 : Vec F S1x512x1024 .f32) (x4 : Vec F S1x512x512 .i32) (xs0 : Vec F S512x1024 .f32) (xs1 : Vec F S512x1 .f32) (xs2 : Vec F S512x1 .f32) (xs3 : Vec F S512x1024 .f32) :
    out0_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay3 (k0_pay1 (k0_pay8 x3) (k0_pay11 xs0 x3 x4 xs1) (k0_pay12 xs0 x3 x4 xs1) xs3) (k0_pay13 xs0 x3 x4 xs1 xs2) := by
  unfold out0_C_5
  rw [View.read_writes_eq_canon _ _ _ (cover0_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun0_C
  dsimp only
  sl_unfold_words
  rw [View.canon_unit_zero hz3]
  simp only [View.readCov_unit_zero (S := S512x1024) _ hz2, View.readCov_unit_zero (S := S512x1) _ hz2, View.readCov_unit_zero (S := S1x512x1024) _ hz3,
    View.readAt_eq_ld, harg3.read_unread, harg4.read_unread, harg5.read_unread, harg6.read_unread, harg7.read_unread, harg8.read_unread, harg9.read_unread, harg10.read_unread, harg11.read_unread, harg12.read_unread,
    View.ld_unit_zero (S := S1x512x1024) hz3, View.ld_unit_zero (S := S1x512x512) hz3, View.ld_unit_zero (S := S1024x1024) hz2, View.ld_unit_zero (S := S1x1024) hz2, View.ld_unit_zero (S := S512x1024) hz2, View.ld_unit_zero (S := S512x1) hz2]

end Cert.KernelIdeal.Pieces
end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.KernelStep.lean ====
/-
  The body's arithmetic at one grid point, read entry by entry on the extended reals.

  With `q` the projected query block (512 rows × 1024 features), `kv` the block of 512 memory rows, `mk` the block of
  the mask and `mo`, `lo`, `ao` what the point before left (running maximum, normaliser, weighted sum):
    the score         s r k   = Σ_d q r d · kv k d + (1 − mk r k) · (−10⁶);
    the new maximum   m' r    = max (mo r) (max_k s r k);
    the rescaling     a r     = exp (mo r − m' r);
    the weight        p r k   = exp (s r k − m' r);
    the normaliser    l' r    = a r · lo r + Σ_k p r k;
    the weighted sum  acc' r d = a r · ao r d + Σ_k p r k · kv k d;
    the result        acc' r d / l' r;   and the projection  q r o = Σ_i x r i · w o i + bias o.
-/
import proofs.«140894_j29884382446446_2_alg».proof.Proof.Gen.KernelIdeal.Skeleton
import proofs.«140894_j29884382446446_2_alg».proof.Proof.LibPlainDot
import proofs.«140894_j29884382446446_2_alg».proof.Proof.LibColumns
import proofs.«140894_j29884382446446_2_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Step

open Cert.KernelIdeal Cert.KernelIdeal.Gen Idealize.ShloMosaic Idealize.ShloMosaic.ValueIdx

/-! ## The three matrix products' dimension numbers: operand positions by coordinates -/

theorem dScore_l0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem dScore_l1 (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
theorem dScore_r0 (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
theorem dScore_r1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem dAcc_l0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem dAcc_l1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem dAcc_r0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem dAcc_r1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem dProj_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dProj_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dProj_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dProj_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The score block -/

/-- The score of key `k` for row `r`: the projected row against the memory row, plus the additive mask. -/
theorem score_apply (q : Vec Ideal S512x1024 .f32) (kv : Vec Ideal S1x512x1024 .f32) (mk : Vec Ideal S1x512x512 .i32) (r k : Fin 512) :
    k0_pay9 (F := Ideal) q kv mk (ix2 r k)
      = (∑ d : Fin 1024, q (ix2 r d) * kv (ix3 (0 : Fin 1) k d))
        + (Ideal.ofBits .f32 0x3F800000#32 - (((mk (ix3 (0 : Fin 1) r k)).toInt : ℝ) : EReal)) * Ideal.ofBits .f32 0xC9742400#32 := by
  unfold k0_pay9 k0_pay8 matmul
  rw [addf_apply, mulf_apply, subf_apply, broadcast_apply, broadcast_apply, sitofp_apply, shapeCast_1ab_ab_apply]
  rw [Cert.PlainDot.matmul_zero_apply _ rfl rfl dScore_l0 dScore_l1 dScore_r0 dScore_r1]
  refine congrArg₂ (· + ·) (Finset.sum_congr rfl fun d _ => ?_) rfl
  rw [truncf_apply, transpose_ix2_apply, truncf_apply, shapeCast_1ab_ab_apply]

/-! ## The running maximum, the rescaling factor, the weights -/

/-- The float word of −∞. -/
theorem negInf_word : Ideal.ofBits .f32 0xFF800000#32 = (⊥ : EReal) := by simp [Ideal.ofBits, Ideal.ieee]

/-- The new running maximum of row `r`: the larger of the old one and the block's largest score. -/
theorem newMax_apply (q : Vec Ideal S512x1024 .f32) (kv : Vec Ideal S1x512x1024 .f32) (mk : Vec Ideal S1x512x512 .i32)
    (mo : Vec Ideal S512x1 .f32) (r : Fin 512) :
    k0_pay10 (F := Ideal) q kv mk mo (ix2 r (0 : Fin 1))
      = max (mo (ix2 r (0 : Fin 1))) ((Finset.univ : Finset (Fin 512)).fold max ⊥ (fun k => k0_pay9 (F := Ideal) q kv mk (ix2 r k))) := by
  unfold k0_pay10
  rw [maximumf_apply, Cert.LibColumns.shapeCast_a_a1_apply]
  refine congrArg (max _) ((Cert.LibRowMax.rowMax_apply (k0_pay9 (F := Ideal) q kv mk) _ _ _ _ r).trans ?_)
  rw [negInf_word]

/-- The rescaling factor of row `r`. -/
theorem rescale_apply (q : Vec Ideal S512x1024 .f32) (kv : Vec Ideal S1x512x1024 .f32) (mk : Vec Ideal S1x512x512 .i32)
    (mo : Vec Ideal S512x1 .f32) (r : Fin 512) :
    k0_pay11 (F := Ideal) q kv mk mo (ix2 r (0 : Fin 1))
      = Ideal.exp (mo (ix2 r (0 : Fin 1)) - k0_pay10 (F := Ideal) q kv mk mo (ix2 r (0 : Fin 1))) := rfl

/-- The weight of key `k` for row `r`, relative to the new running maximum. -/
theorem weight_apply (q : Vec Ideal S512x1024 .f32) (kv : Vec Ideal S1x512x1024 .f32) (mk : Vec Ideal S1x512x512 .i32)
    (mo : Vec Ideal S512x1 .f32) (r k : Fin 512) :
    k0_pay12 (F := Ideal) q kv mk mo (ix2 r k)
      = Ideal.exp (k0_pay9 (F := Ideal) q kv mk (ix2 r k) - k0_pay10 (F := Ideal) q kv mk mo (ix2 r (0 : Fin 1))) := by
  unfold k0_pay12
  refine congrArg Ideal.exp ?_
  rw [subf_apply, Cert.LibColumns.broadcastTo_a1_ab_apply]

/-! ## The normaliser and the weighted sum -/

/-- The new normaliser of row `r`: the old one rescaled, plus the block's weights. -/
theorem newNorm_apply (q : Vec Ideal S512x1024 .f32) (kv : Vec Ideal S1x512x1024 .f32) (mk : Vec Ideal S1x512x512 .i32)
    (mo lo : Vec Ideal S512x1 .f32) (r : Fin 512) :
    k0_pay13 (F := Ideal) q kv mk mo lo (ix2 r (0 : Fin 1))
      = k0_pay11 (F := Ideal) q kv mk mo (ix2 r (0 : Fin 1)) * lo (ix2 r (0 : Fin 1))
        + ∑ k : Fin 512, k0_pay12 (F := Ideal) q kv mk mo (ix2 r k) := by
  unfold k0_pay13
  rw [shapeCast_self, addf_apply, mulf_apply, Cert.LibColumns.shapeCast_a_a1_apply]
  exact congrArg (_ + ·) (Cert.LibColumns.rowSum_apply (k0_pay12 (F := Ideal) q kv mk mo) _ _ _ _ r)

/-- The new weighted sum at `(r, d)`: the old one rescaled, plus the block's weights against the memory rows. -/
theorem newAcc_apply (kv : Vec Ideal S1x512x1024 .f32) (a : FVec Ideal S512x1 .f32) (p : FVec Ideal S512x512 .f32)
    (ao : Vec Ideal S512x1024 .f32) (r : Fin 512) (d : Fin 1024) :
    k0_pay1 (F := Ideal) (k0_pay8 kv) a p ao (ix2 r d)
      = a (ix2 r (0 : Fin 1)) * ao (ix2 r d) + ∑ k : Fin 512, p (ix2 r k) * kv (ix3 (0 : Fin 1) k d) := by
  unfold k0_pay1 k0_pay8 matmul
  rw [shapeCast_self, addf_apply, mulf_apply, Cert.LibColumns.broadcastTo_a1_ab_apply]
  rw [Cert.PlainDot.matmul_zero_apply _ rfl rfl dAcc_l0 dAcc_l1 dAcc_r0 dAcc_r1]
  refine congrArg₂ (· + ·) rfl (Finset.sum_congr rfl fun k _ => ?_)
  rw [truncf_apply, truncf_apply, shapeCast_1ab_ab_apply]

/-- The running maximum is stored as it is. -/
theorem keepMax {F : FTy → Type} [FloatOps F] (x : FVec F S512x1 .f32) : k0_pay2 x = x := by
  unfold k0_pay2
  rw [shapeCast_self]

/-! ## The result and the projection -/

/-- The result at `(r, d)`: the weighted sum over the normaliser. -/
theorem result_apply (acc : Vec Ideal S512x1024 .f32) (l : Vec Ideal S512x1 .f32) (r : Fin 512) (d : Fin 1024) :
    k0_pay3 (F := Ideal) acc l (ix3 (0 : Fin 1) r d) = Ideal.div (acc (ix2 r d)) (l (ix2 r (0 : Fin 1))) := by
  unfold k0_pay3
  rw [shapeCast_ab_1ab_apply, divf_apply, Cert.LibColumns.broadcastTo_a1_ab_apply]

/-- The projected query at `(r, o)`: the query row against row `o` of the weights, plus the bias. -/
theorem proj_apply (x : Vec Ideal S1x512x1024 .f32) (w : Vec Ideal S1024x1024 .f32) (bias : Vec Ideal S1x1024 .f32)
    (r : Fin 512) (o : Fin 1024) :
    k0_pay4 (F := Ideal) x w bias (ix2 r o)
      = (∑ i : Fin 1024, x (ix3 (0 : Fin 1) r i) * w (ix2 o i)) + bias (ix2 (0 : Fin 1) o) := by
  unfold k0_pay4 matmul
  rw [shapeCast_self, addf_apply, broadcastTo_1b_ab_apply, shapeCast_self]
  rw [Cert.PlainDot.matmul_zero_apply _ rfl rfl dProj_l0 dProj_l1 dProj_r0 dProj_r1]
  refine congrArg₂ (· + ·) (Finset.sum_congr rfl fun i _ => ?_) rfl
  rw [truncf_apply, shapeCast_1ab_ab_apply, transpose_ix2_apply, truncf_apply]

/-! ## What the first point of a row block starts from -/

/-- Before the first block the running maximum is −∞ … -/
theorem startMax_apply (i : S512x1.Idx) : k0_pay5 (F := Ideal) i = (⊥ : EReal) := by
  unfold k0_pay5
  rw [shapeCast_self, broadcast_apply]
  exact negInf_word

/-- … the normaliser is zero … -/
theorem startNorm_apply (i : S512x1.Idx) : k0_pay6 (F := Ideal) i = (0 : EReal) := by
  unfold k0_pay6
  rw [shapeCast_self, broadcast_apply]
  exact Ideal.ofBits_zero_f32

/-- … and so is the weighted sum. -/
theorem startAcc_apply (i : S512x1024.Idx) : k0_pay7 (F := Ideal) i = (0 : EReal) := by
  unfold k0_pay7
  rw [shapeCast_self, broadcast_apply]
  exact Ideal.ofBits_zero_f32

end Cert.KernelIdeal.Step

end
-- ==== Proof.AttnSpec.lean ====
/-
  Masked dot-product attention with a learned query projection, as ONE function of the five argument arrays,
  entry by entry, on the extended reals.

  For batch `b`, query row `q`:
    the projected query      proj b q o  = Σᵢ query[b,q,i] · W[o,i] + bias[o];
    the score of key `k`      logit b q k = Σ_d proj b q d · mem[b,k,d] + (1 − mask[b,q,k]) · (−10⁶);
    the row's largest score  rowMax b q  = max over the 2048 keys (from −∞);
    the unnormalised weight  weight b q k = exp (logit b q k − rowMax b q);
    the normaliser           norm b q    = Σ_k weight b q k;
    the result               out b q d   = Σ_k (weight b q k / norm b q) · mem[b,k,d].
  The float words 1.0 and −10⁶ are kept as words: the same word stands on both sides of the comparison.
-/
import Idealize.ShloMosaic.PureOps.Ideal
import Idealize.ShloMosaic.Lib.ValueIdx

noncomputable section

open scoped BigOperators

namespace Cert.AttnSpec

open Idealize.ShloMosaic Idealize.ShloMosaic.ValueIdx

/-- query, memories and the result: 8 batches × 2048 rows × 1024 features. -/
abbrev SQ : Shape := ⟨3, ![8, 2048, 1024]⟩
/-- the mask: 8 batches × 2048 query rows × 2048 keys. -/
abbrev SM : Shape := ⟨3, ![8, 2048, 2048]⟩
/-- the projection's weights, one row per output feature. -/
abbrev SW : Shape := ⟨2, ![1024, 1024]⟩
/-- the projection's bias. -/
abbrev SB : Shape := ⟨1, ![1024]⟩

variable (x0 x1 : SQ.Idx → EReal) (x2 : SM.Idx → BitVec 32) (x3 : SW.Idx → EReal) (x4 : SB.Idx → EReal)

/-- The projected query: row `q` of batch `b` against row `o` of the weights, plus the bias. -/
def proj (b : Fin 8) (q : Fin 2048) (o : Fin 1024) : EReal :=
  (∑ i : Fin 1024, x0 (ix3 b q i) * x3 (ix2 o i)) + x4 (ix1 o)

/-- The additive mask: `(1 − mask) · (−10⁶)`, zero where the mask is one. -/
def maskTerm (b : Fin 8) (q k : Fin 2048) : EReal :=
  (Ideal.ofBits .f32 0x3F800000#32 - (((x2 (ix3 b q k)).toInt : ℝ) : EReal)) * Ideal.ofBits .f32 0xC9742400#32

/-- The score of key `k` for query row `q`. -/
def logit (b : Fin 8) (q k : Fin 2048) : EReal :=
  (∑ d : Fin 1024, proj x0 x3 x4 b q d * x1 (ix3 b k d)) + maskTerm x2 b q k

/-- The largest score of the row, folded from −∞. -/
def rowMax (b : Fin 8) (q : Fin 2048) : EReal :=
  (Finset.univ : Finset (Fin 2048)).fold max ⊥ (fun k => logit x0 x1 x2 x3 x4 b q k)

/-- The unnormalised softmax weight of key `k`. -/
def weight (b : Fin 8) (q k : Fin 2048) : EReal :=
  Ideal.exp (logit x0 x1 x2 x3 x4 b q k - rowMax x0 x1 x2 x3 x4 b q)

/-- The softmax normaliser of the row. -/
def norm (b : Fin 8) (q : Fin 2048) : EReal :=
  ∑ k : Fin 2048, weight x0 x1 x2 x3 x4 b q k

/-- The attention result: the memories averaged with the softmax weights. -/
def out (b : Fin 8) (q : Fin 2048) (d : Fin 1024) : EReal :=
  ∑ k : Fin 2048, Ideal.div (weight x0 x1 x2 x3 x4 b q k) (norm x0 x1 x2 x3 x4 b q) * x1 (ix3 b k d)

/-- The result as an array. -/
def outArr : SQ.Idx → EReal := fun i => out x0 x1 x2 x3 x4 (i 0) (i 1) (i 2)

end Cert.AttnSpec

end
-- ==== Proof.LibOnlineSoftmax.lean ====
/-
  The online form of a row softmax, as a recurrence on the extended reals.

  A row of `N` scores `L` with values `V` is visited in consecutive blocks of `bs` keys; `e j k` is the `k`-th key of block
  `j`.  Three running quantities are carried from block to block: the largest score seen so far `mAt`, the normaliser
  `lAt` and the weighted sum `accAt`, both taken relative to the current `mAt`.  On entering a new block the old
  normaliser and sum are rescaled by `exp (old maximum − new maximum)` (`aAt`).  Before the first block the maximum is −∞
  and the two sums are zero.  General in the row length `N` and the block size `bs`.
-/
import Idealize.ShloMosaic.PureOps.Ideal

noncomputable section

open scoped BigOperators

namespace Cert.OnlineSoftmax

open Idealize.ShloMosaic

variable {N bs : ℕ} (L V : Fin N → EReal) (e : ℕ → Fin bs → Fin N)

/-- The largest score of block `j`, folded from −∞. -/
def blockMax (j : ℕ) : EReal := (Finset.univ : Finset (Fin bs)).fold max ⊥ (fun k => L (e j k))

/-- The running maximum after block `j`. -/
def mAt : ℕ → EReal
  | 0 => max ⊥ (blockMax L e 0)
  | j + 1 => max (mAt j) (blockMax L e (j + 1))

/-- The factor by which the old sums are rescaled on entering block `j`. -/
def aAt : ℕ → EReal
  | 0 => Ideal.exp (⊥ - mAt L e 0)
  | j + 1 => Ideal.exp (mAt L e j - mAt L e (j + 1))

/-- The weight of the `k`-th key of block `j` relative to the running maximum after that block. -/
def pAt (j : ℕ) (k : Fin bs) : EReal := Ideal.exp (L (e j k) - mAt L e j)

/-- The running normaliser after block `j`. -/
def lAt : ℕ → EReal
  | 0 => aAt L e 0 * 0 + ∑ k : Fin bs, pAt L e 0 k
  | j + 1 => aAt L e (j + 1) * lAt j + ∑ k : Fin bs, pAt L e (j + 1) k

/-- The running weighted sum of the values after block `j`. -/
def accAt : ℕ → EReal
  | 0 => aAt L e 0 * 0 + ∑ k : Fin bs, pAt L e 0 k * V (e 0 k)
  | j + 1 => aAt L e (j + 1) * accAt j + ∑ k : Fin bs, pAt L e (j + 1) k * V (e (j + 1) k)

end Cert.OnlineSoftmax

end
-- ==== Proof.KernelReads.lean ====
/-
  What each window's block holds, entry by entry, and where the result's blocks sit.

  Point `t` of the 8 · 4 · 4 grid is batch `t / 16`, block `(t / 4) % 4` of 512 query rows and block `t % 4` of 512 keys.
  A block's coordinate on an axis is the window's block index there times the block's extent, plus the coordinate inside
  the block; with the block indices decided over the grid this gives, at point `t`:
    the memory block's entry (k, d)   is memories[t / 16, 512 · (t % 4) + k, d];
    the mask block's entry (r, k)     is mask[t / 16, 512 · ((t / 4) % 4) + r, 512 · (t % 4) + k];
    the weights block is the whole weights array, and the bias block the whole bias (as the one row a reshape before the
    region made of it);
    the result block's entry (r, d)   is entry (t / 16, 512 · ((t / 4) % 4) + r, d) of the result array.
  The result window writes back at the last point of every run of four, and those blocks fill the result array: entry
  (b, q, d) is in the block of point 16 · b + 4 · (q / 512) + 3.
-/
import proofs.«140894_j29884382446446_2_alg».proof.Proof.KernelBlocks
import proofs.«140894_j29884382446446_2_alg».proof.Proof.Gen.KernelIdeal.Points
import proofs.«140894_j29884382446446_2_alg».proof.Proof.Gen.KernelIdeal.Frame
import proofs.«140894_j29884382446446_2_alg».proof.Proof.AttnKeys
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.AttnKeys

variable (m : (ℓ : Loc nD τ sig) → Buf (Elt Ideal) ℓ)

/-- The memory block at point `t`: row `k` of the block is key `512 · (t % 4) + k` of batch `t / 16`. -/
theorem mem_apply (c : Dev nD) (t : Fin cfg0.N) (k : Fin 512) (d : Fin 1024) :
    (iblk m c 3 t : Vec Ideal S1x512x1024 .f32) (ix3 (0 : Fin 1) k d)
      = m ((c : Thread nD τ).loc main_arg1) (ix3 (bOf t.val) (key (t.val % 4) k) d) := by
  obtain ⟨-, -, -, -, -, -, -, e0, e1, e2, -⟩ := idx_facts t
  show V m c main_arg1 (((cfg0.win 3).blk t).view.emb (ix3 (0 : Fin 1) k d)) = _
  rw [V_main_arg1]
  refine congrArg _ (funext fun a => Fin.ext ?_)
  match a with
  | ⟨0, _⟩ => show win0_3.index t (0 : Fin 3) * 1 + 1 * 0 = (bOf t.val).val; rw [bOf_val t.val (lt_of_lt_of_eq t.isLt hN)]; omega
  | ⟨1, _⟩ => show win0_3.index t (1 : Fin 3) * 512 + 1 * k.val = (key (t.val % 4) k).val; rw [key_val (t.val % 4) (by omega) k]; omega
  | ⟨2, _⟩ => show win0_3.index t (2 : Fin 3) * 1024 + 1 * d.val = d.val; omega

/-- The mask block at point `t`: entry `(r, k)` is query row `512 · ((t / 4) % 4) + r` against key `512 · (t % 4) + k`. -/
theorem mask_apply (c : Dev nD) (t : Fin cfg0.N) (r k : Fin 512) :
    (iblk m c 4 t : Vec Ideal S1x512x512 .i32) (ix3 (0 : Fin 1) r k)
      = m ((c : Thread nD τ).loc main_arg2) (ix3 (bOf t.val) (qRow t.val r) (key (t.val % 4) k)) := by
  obtain ⟨-, -, -, -, -, -, -, -, -, -, e0, e1, e2, -⟩ := idx_facts t
  show V m c main_arg2 (((cfg0.win 4).blk t).view.emb (ix3 (0 : Fin 1) r k)) = _
  rw [V_main_arg2]
  refine congrArg _ (funext fun a => Fin.ext ?_)
  match a with
  | ⟨0, _⟩ => show win0_4.index t (0 : Fin 3) * 1 + 1 * 0 = (bOf t.val).val; rw [bOf_val t.val (lt_of_lt_of_eq t.isLt hN)]; omega
  | ⟨1, _⟩ => show win0_4.index t (1 : Fin 3) * 512 + 1 * r.val = 512 * ((t.val / 4) % 4) + r.val; omega
  | ⟨2, _⟩ => show win0_4.index t (2 : Fin 3) * 512 + 1 * k.val = (key (t.val % 4) k).val; rw [key_val (t.val % 4) (by omega) k]; omega

/-- The weights window holds the whole weights array at every point. -/
theorem weights_apply (c : Dev nD) (t : Fin cfg0.N) (o i : Fin 1024) :
    (iblk m c 1 t : Vec Ideal S1024x1024 .f32) (ix2 o i) = m ((c : Thread nD τ).loc main_arg3) (ix2 o i) := by
  obtain ⟨-, -, -, e0, e1, -⟩ := idx_facts t
  show V m c main_arg3 (((cfg0.win 1).blk t).view.emb (ix2 o i)) = _
  rw [V_main_arg3]
  refine congrArg _ (funext fun a => Fin.ext ?_)
  match a with
  | ⟨0, _⟩ => show win0_1.index t (0 : Fin 2) * 1024 + 1 * o.val = o.val; omega
  | ⟨1, _⟩ => show win0_1.index t (1 : Fin 2) * 1024 + 1 * i.val = i.val; omega

/-- The bias window holds the whole bias, as the one row the reshape before the region made of it. -/
theorem bias_apply (c : Dev nD) (t : Fin cfg0.N) (o : Fin 1024) :
    (iblk m c 2 t : Vec Ideal S1x1024 .f32) (ix2 (0 : Fin 1) o) = m ((c : Thread nD τ).loc main_arg4) (ix1 o) := by
  obtain ⟨-, -, -, -, -, e0, e1, -⟩ := idx_facts t
  have e : (V m c main_v0 : S1x1024.Idx → EReal)
      = shapeCast S1x1024 (m ((c : Thread nD τ).loc main_arg4)) shapeCasts_S1024_S1x1024 := by
    dsimp only [Gen.V, Gen.hostOps0]; after_results; rfl
  have ei : ((cfg0.win 2).blk t).view.emb (ix2 (0 : Fin 1) o) = (ix2 (0 : Fin 1) o : S1x1024.Idx) :=
    funext fun a => Fin.ext (by
      match a with
      | ⟨0, _⟩ => show win0_2.index t (0 : Fin 2) * 1 + 1 * 0 = 0; omega
      | ⟨1, _⟩ => show win0_2.index t (1 : Fin 2) * 1024 + 1 * o.val = o.val; omega)
  show V m c main_v0 (((cfg0.win 2).blk t).view.emb (ix2 (0 : Fin 1) o)) = _
  rw [ei, e, shapeCast_a_1a_apply]

/-- The result window's block at point `t` sits at the query rows of the point: entry `(r, d)` of the block is entry
    `(t / 16, 512 · ((t / 4) % 4) + r, d)` of the array. -/
theorem out_emb (t : Fin cfg0.N) (r : Fin 512) (d : Fin 1024) :
    (((cfg0.win 5).blk t).view.emb (ix3 (0 : Fin 1) r d) : S8x2048x1024.Idx) = ix3 (bOf t.val) (qRow t.val r) d := by
  obtain ⟨-, -, -, -, -, -, -, -, -, -, -, -, -, e0, e1, e2⟩ := idx_facts t
  refine funext fun a => Fin.ext ?_
  match a with
  | ⟨0, _⟩ => show win0_5.index t (0 : Fin 3) * 1 + 1 * 0 = (bOf t.val).val; rw [bOf_val t.val (lt_of_lt_of_eq t.isLt hN)]; omega
  | ⟨1, _⟩ => show win0_5.index t (1 : Fin 3) * 512 + 1 * r.val = 512 * ((t.val / 4) % 4) + r.val; omega
  | ⟨2, _⟩ => show win0_5.index t (2 : Fin 3) * 1024 + 1 * d.val = d.val; omega

/-- An index of the result array is in point `t`'s block iff each coordinate is in the block's range on its axis. -/
theorem mem_blk5 (t : Fin cfg0.N) (i : S8x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v1).slice (win0_5.rect t)).set ↔ _
  rw [View.set_slice_whole, Rect.mem_set_unit]
  exact Iff.rfl

/-- Every entry of the result array is written back: entry `(b, q, d)` lies in the block of point
    `16 · b + 4 · (q / 512) + 3`, the last point of its run of four, which is a point that writes back. -/
theorem cover5 (i : S8x2048x1024.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  obtain ⟨t, ht⟩ : ∃ t : Fin cfg0.N, t.val = 16 * (i 0).val + 4 * ((i 1).val / 512) + 3 :=
    ⟨⟨16 * (i 0).val + 4 * ((i 1).val / 512) + 3, by rw [hN]; omega⟩, rfl⟩
  obtain ⟨-, -, -, -, -, -, -, -, -, -, -, -, -, e0, e1, e2⟩ := idx_facts t
  refine ⟨t, (flush0_5 t).2 (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

end Cert.KernelIdeal.Blocks

end
-- ==== Proof.KernelStepLaw.lean ====
/-
  One step of the body on one row, in the terms of the online softmax recurrence.

  Fix a row `r` of the block of 512 query rows, and suppose the scores the body computes for that row are the scores
  `L` of the keys of block `j` and the memory rows it reads are the values of those keys.  If what the point before
  left for the row is the recurrence's state after block `j − 1` (running maximum, normaliser, weighted sum; before
  the first block: −∞, 0, 0), then what the body leaves is the recurrence's state after block `j`:
    the new maximum   max (old maximum) (largest score of the block);
    the rescaling     exp (old maximum − new maximum);
    the weights       exp (score − new maximum);
    the normaliser    rescaling · old normaliser + Σ weights;
    the weighted sum  rescaling · old sum + Σ weight · value.
  Each is the body's arithmetic read at the row, with the hypotheses substituted, and then the recurrence's own
  defining equation.
-/
import proofs.«140894_j29884382446446_2_alg».proof.Proof.KernelStep
import proofs.«140894_j29884382446446_2_alg».proof.Proof.LibOnlineSoftmax
import proofs.«140894_j29884382446446_2_alg».proof.Proof.AttnKeys

noncomputable section

open scoped BigOperators

namespace Cert.KernelIdeal.StepLaw

open Cert.KernelIdeal Cert.KernelIdeal.Gen Cert.KernelIdeal.Step Cert.OnlineSoftmax Cert.AttnKeys
  Idealize.ShloMosaic Idealize.ShloMosaic.ValueIdx

/-! ## The recurrence's defining equations -/

section Recurrence

variable {N bs : ℕ} (L V : Fin N → EReal) (e : ℕ → Fin bs → Fin N)

theorem mAt_zero : mAt L e 0 = max ⊥ (blockMax L e 0) := rfl
theorem mAt_succ (j : ℕ) : mAt L e (j + 1) = max (mAt L e j) (blockMax L e (j + 1)) := rfl
theorem aAt_zero : aAt L e 0 = Ideal.exp (⊥ - mAt L e 0) := rfl
theorem aAt_succ (j : ℕ) : aAt L e (j + 1) = Ideal.exp (mAt L e j - mAt L e (j + 1)) := rfl
theorem lAt_zero : lAt L e 0 = aAt L e 0 * 0 + ∑ k : Fin bs, pAt L e 0 k := rfl
theorem lAt_succ (j : ℕ) : lAt L e (j + 1) = aAt L e (j + 1) * lAt L e j + ∑ k : Fin bs, pAt L e (j + 1) k := rfl
theorem accAt_zero : accAt L V e 0 = aAt L e 0 * 0 + ∑ k : Fin bs, pAt L e 0 k * V (e 0 k) := rfl
theorem accAt_succ (j : ℕ) :
    accAt L V e (j + 1) = aAt L e (j + 1) * accAt L V e j + ∑ k : Fin bs, pAt L e (j + 1) k * V (e (j + 1) k) := rfl

end Recurrence

variable (q : Vec Ideal S512x1024 .f32) (kv : Vec Ideal S1x512x1024 .f32) (mk : Vec Ideal S1x512x512 .i32)
  (mo lo : Vec Ideal S512x1 .f32) (ao : Vec Ideal S512x1024 .f32) (L : Fin 2048 → EReal)
  (Vd : Fin 1024 → Fin 2048 → EReal) (r : Fin 512)

/-! ## The pieces of a step, for the block `J` whose scores the body sees -/

/-- The new running maximum is the larger of the old one and the largest score of the block. -/
theorem max_step (J : ℕ) (hs : ∀ k : Fin 512, k0_pay9 (F := Ideal) q kv mk (ix2 r k) = L (key J k)) :
    k0_pay10 (F := Ideal) q kv mk mo (ix2 r (0 : Fin 1)) = max (mo (ix2 r (0 : Fin 1))) (blockMax L key J) :=
  (newMax_apply q kv mk mo r).trans
    (congrArg (max (mo (ix2 r (0 : Fin 1))))
      (congrArg (fun f : Fin 512 → EReal => (Finset.univ : Finset (Fin 512)).fold max ⊥ f) (funext hs)))

/-- A weight is the recurrence's weight once the new maximum is the recurrence's. -/
theorem weight_step (J : ℕ) (hs : ∀ k : Fin 512, k0_pay9 (F := Ideal) q kv mk (ix2 r k) = L (key J k))
    (hM : k0_pay10 (F := Ideal) q kv mk mo (ix2 r (0 : Fin 1)) = mAt L key J) (k : Fin 512) :
    k0_pay12 (F := Ideal) q kv mk mo (ix2 r k) = pAt L key J k :=
  (weight_apply q kv mk mo r k).trans (congrArg₂ (fun s m : EReal => Ideal.exp (s - m)) (hs k) hM)

/-- The rescaling factor, from the old maximum `m0` to the recurrence's new one. -/
theorem rescale_step (J : ℕ) (m0 : EReal) (hm : mo (ix2 r (0 : Fin 1)) = m0)
    (hM : k0_pay10 (F := Ideal) q kv mk mo (ix2 r (0 : Fin 1)) = mAt L key J) :
    k0_pay11 (F := Ideal) q kv mk mo (ix2 r (0 : Fin 1)) = Ideal.exp (m0 - mAt L key J) :=
  (rescale_apply q kv mk mo r).trans (congrArg₂ (fun a m : EReal => Ideal.exp (a - m)) hm hM)

/-- The new normaliser, from the old normaliser `l0` and rescaling factor `a`. -/
theorem norm_step (J : ℕ) (a l0 : EReal) (hs : ∀ k : Fin 512, k0_pay9 (F := Ideal) q kv mk (ix2 r k) = L (key J k))
    (hM : k0_pay10 (F := Ideal) q kv mk mo (ix2 r (0 : Fin 1)) = mAt L key J)
    (hA : k0_pay11 (F := Ideal) q kv mk mo (ix2 r (0 : Fin 1)) = a) (hl : lo (ix2 r (0 : Fin 1)) = l0) :
    k0_pay13 (F := Ideal) q kv mk mo lo (ix2 r (0 : Fin 1)) = a * l0 + ∑ k : Fin 512, pAt L key J k :=
  (newNorm_apply q kv mk mo lo r).trans
    (congrArg₂ (fun x y : EReal => x + y) (congrArg₂ (fun x y : EReal => x * y) hA hl)
      (Finset.sum_congr rfl fun k _ => weight_step q kv mk mo L r J hs hM k))

/-- The new weighted sum at feature `d`, from the old sum `c0` and rescaling factor `a`. -/
theorem acc_step (J : ℕ) (a c0 : EReal) (d : Fin 1024)
    (hs : ∀ k : Fin 512, k0_pay9 (F := Ideal) q kv mk (ix2 r k) = L (key J k))
    (hv : ∀ k : Fin 512, kv (ix3 (0 : Fin 1) k d) = Vd d (key J k))
    (hM : k0_pay10 (F := Ideal) q kv mk mo (ix2 r (0 : Fin 1)) = mAt L key J)
    (hA : k0_pay11 (F := Ideal) q kv mk mo (ix2 r (0 : Fin 1)) = a) (ha : ao (ix2 r d) = c0) :
    k0_pay1 (F := Ideal) (k0_pay8 kv) (k0_pay11 q kv mk mo) (k0_pay12 q kv mk mo) ao (ix2 r d)
      = a * c0 + ∑ k : Fin 512, pAt L key J k * Vd d (key J k) :=
  (newAcc_apply kv (k0_pay11 (F := Ideal) q kv mk mo) (k0_pay12 (F := Ideal) q kv mk mo) ao r d).trans
    (congrArg₂ (fun x y : EReal => x + y) (congrArg₂ (fun x y : EReal => x * y) hA ha)
      (Finset.sum_congr rfl fun k _ =>
        congrArg₂ (fun x y : EReal => x * y) (weight_step q kv mk mo L r J hs hM k) (hv k)))

/-! ## The first block: the state before it is −∞, 0, 0 -/

/-- The maximum the body computes on the first block, before it is stored. -/
theorem first_newMax (hs : ∀ k : Fin 512, k0_pay9 (F := Ideal) q kv mk (ix2 r k) = L (key 0 k))
    (hm : mo (ix2 r (0 : Fin 1)) = (⊥ : EReal)) :
    k0_pay10 (F := Ideal) q kv mk mo (ix2 r (0 : Fin 1)) = mAt L key 0 :=
  (max_step q kv mk mo L r 0 hs).trans
    ((congrArg (fun t : EReal => max t (blockMax L key 0)) hm).trans (mAt_zero L key).symm)

theorem first_max (hs : ∀ k : Fin 512, k0_pay9 (F := Ideal) q kv mk (ix2 r k) = L (key 0 k))
    (hm : mo (ix2 r (0 : Fin 1)) = (⊥ : EReal)) :
    k0_pay2 (k0_pay10 (F := Ideal) q kv mk mo) (ix2 r (0 : Fin 1)) = mAt L key 0 := by
  rw [keepMax]
  exact first_newMax q kv mk mo L r hs hm

theorem first_norm (hs : ∀ k : Fin 512, k0_pay9 (F := Ideal) q kv mk (ix2 r k) = L (key 0 k))
    (hm : mo (ix2 r (0 : Fin 1)) = (⊥ : EReal)) (hl : lo (ix2 r (0 : Fin 1)) = (0 : EReal)) :
    k0_pay13 (F := Ideal) q kv mk mo lo (ix2 r (0 : Fin 1)) = lAt L key 0 :=
  have hM := first_newMax q kv mk mo L r hs hm
  (norm_step q kv mk mo lo L r 0 (aAt L key 0) 0 hs hM
    ((rescale_step q kv mk mo L r 0 ⊥ hm hM).trans (aAt_zero L key).symm) hl).trans (lAt_zero L key).symm

theorem first_acc (hs : ∀ k : Fin 512, k0_pay9 (F := Ideal) q kv mk (ix2 r k) = L (key 0 k))
    (hv : ∀ (k : Fin 512) (d : Fin 1024), kv (ix3 (0 : Fin 1) k d) = Vd d (key 0 k))
    (hm : mo (ix2 r (0 : Fin 1)) = (⊥ : EReal)) (ha : ∀ d : Fin 1024, ao (ix2 r d) = (0 : EReal)) (d : Fin 1024) :
    k0_pay1 (F := Ideal) (k0_pay8 kv) (k0_pay11 q kv mk mo) (k0_pay12 q kv mk mo) ao (ix2 r d)
      = accAt L (Vd d) key 0 :=
  have hM := first_newMax q kv mk mo L r hs hm
  (acc_step q kv mk mo ao L Vd r 0 (aAt L key 0) 0 d hs (fun k => hv k d) hM
    ((rescale_step q kv mk mo L r 0 ⊥ hm hM).trans (aAt_zero L key).symm) (ha d)).trans
    (accAt_zero L (Vd d) key).symm

/-! ## A later block: the state before it is the recurrence's state after block `j` -/

/-- The maximum the body computes on block `j + 1`, before it is stored. -/
theorem next_newMax (j : ℕ) (hs : ∀ k : Fin 512, k0_pay9 (F := Ideal) q kv mk (ix2 r k) = L (key (j + 1) k))
    (hm : mo (ix2 r (0 : Fin 1)) = mAt L key j) :
    k0_pay10 (F := Ideal) q kv mk mo (ix2 r (0 : Fin 1)) = mAt L key (j + 1) :=
  (max_step q kv mk mo L r (j + 1) hs).trans
    ((congrArg (fun t : EReal => max t (blockMax L key (j + 1))) hm).trans (mAt_succ L key j).symm)

theorem next_max (j : ℕ) (hs : ∀ k : Fin 512, k0_pay9 (F := Ideal) q kv mk (ix2 r k) = L (key (j + 1) k))
    (hm : mo (ix2 r (0 : Fin 1)) = mAt L key j) :
    k0_pay2 (k0_pay10 (F := Ideal) q kv mk mo) (ix2 r (0 : Fin 1)) = mAt L key (j + 1) := by
  rw [keepMax]
  exact next_newMax q kv mk mo L r j hs hm

theorem next_norm (j : ℕ) (hs : ∀ k : Fin 512, k0_pay9 (F := Ideal) q kv mk (ix2 r k) = L (key (j + 1) k))
    (hm : mo (ix2 r (0 : Fin 1)) = mAt L key j) (hl : lo (ix2 r (0 : Fin 1)) = lAt L key j) :
    k0_pay13 (F := Ideal) q kv mk mo lo (ix2 r (0 : Fin 1)) = lAt L key (j + 1) :=
  have hM := next_newMax q kv mk mo L r j hs hm
  (norm_step q kv mk mo lo L r (j + 1) (aAt L key (j + 1)) (lAt L key j) hs hM
    ((rescale_step q kv mk mo L r (j + 1) (mAt L key j) hm hM).trans (aAt_succ L key j).symm) hl).trans
    (lAt_succ L key j).symm

theorem next_acc (j : ℕ) (hs : ∀ k : Fin 512, k0_pay9 (F := Ideal) q kv mk (ix2 r k) = L (key (j + 1) k))
    (hv : ∀ (k : Fin 512) (d : Fin 1024), kv (ix3 (0 : Fin 1) k d) = Vd d (key (j + 1) k))
    (hm : mo (ix2 r (0 : Fin 1)) = mAt L key j) (ha : ∀ d : Fin 1024, ao (ix2 r d) = accAt L (Vd d) key j)
    (d : Fin 1024) :
    k0_pay1 (F := Ideal) (k0_pay8 kv) (k0_pay11 q kv mk mo) (k0_pay12 q kv mk mo) ao (ix2 r d)
      = accAt L (Vd d) key (j + 1) :=
  have hM := next_newMax q kv mk mo L r j hs hm
  (acc_step q kv mk mo ao L Vd r (j + 1) (aAt L key (j + 1)) (accAt L (Vd d) key j) d hs (fun k => hv k d) hM
    ((rescale_step q kv mk mo L r (j + 1) (mAt L key j) hm hM).trans (aAt_succ L key j).symm) (ha d)).trans
    (accAt_succ L (Vd d) key j).symm

end Cert.KernelIdeal.StepLaw

end
-- ==== Proof.KernelInvariant.lean ====
/-
  What the kernel's carried scratch holds after every grid point.

  A run of four consecutive points works on one block of 512 query rows of one batch and visits the four blocks of 512
  keys in turn.  Its first point stores the projected query rows and starts the online softmax recurrence (maximum −∞,
  sums 0) with the first block of keys; each later point keeps the projection and advances the recurrence by one block;
  the last point also divides the weighted sum by the normaliser into the result block.  By induction on the point.
-/
import proofs.«140894_j29884382446446_2_alg».proof.Proof.KernelBlocks
import proofs.«140894_j29884382446446_2_alg».proof.Proof.KernelPieces
import proofs.«140894_j29884382446446_2_alg».proof.Proof.KernelStep
import proofs.«140894_j29884382446446_2_alg».proof.Proof.AttnSpec
import proofs.«140894_j29884382446446_2_alg».proof.Proof.LibOnlineSoftmax
import proofs.«140894_j29884382446446_2_alg».proof.Proof.KernelReads
import proofs.«140894_j29884382446446_2_alg».proof.Proof.KernelStepLaw

set_option maxRecDepth 16384

noncomputable section

open scoped BigOperators

namespace Cert.KernelIdeal.Inv

open Cert.KernelIdeal Cert.KernelIdeal.Gen Cert.KernelIdeal.Blocks Cert.KernelIdeal.Step Cert.KernelIdeal.StepLaw
open Cert.OnlineSoftmax Cert.AttnKeys Cert.AttnSpec
open Idealize.ShloMosaic Idealize.ShloMosaic.TcCoe Idealize.SL.Sem Idealize.ShloMosaic.ValueIdx

variable (m : (ℓ : Loc nD τ sig) → Buf (Elt Ideal) ℓ) (c : Dev nD)

/-- The five argument arrays as core `c` holds them at launch. -/
abbrev X0 : SQ.Idx → EReal := m ((c : Thread nD τ).loc main_arg0)
abbrev X1 : SQ.Idx → EReal := m ((c : Thread nD τ).loc main_arg1)
abbrev X2 : SM.Idx → BitVec 32 := m ((c : Thread nD τ).loc main_arg2)
abbrev X3 : SW.Idx → EReal := m ((c : Thread nD τ).loc main_arg3)
abbrev X4 : SB.Idx → EReal := m ((c : Thread nD τ).loc main_arg4)

/-- The scores of query row `q` of batch `b` against all 2048 keys. -/
def Lrow (b : Fin 8) (q : Fin 2048) : Fin 2048 → EReal := fun n => logit (X0 m c) (X1 m c) (X2 m c) (X3 m c) (X4 m c) b q n

/-- Feature `d` of the 2048 memory rows of batch `b`. -/
def Vcol (b : Fin 8) (d : Fin 1024) : Fin 2048 → EReal := fun n => X1 m c (ix3 b n d)

/-- With the projected rows in place, the score block of point `t` holds the scores of its rows against its keys. -/
theorem score_eq (t : Fin cfg0.N) (qs : Vec Ideal S512x1024 .f32) (r : Fin 512)
    (hq : ∀ d : Fin 1024, qs (ix2 r d) = proj (X0 m c) (X3 m c) (X4 m c) (bOf t.val) (qRow t.val r) d) (k : Fin 512) :
    k0_pay9 (F := Ideal) qs (iblk m c 3 t) (iblk m c 4 t) (ix2 r k) = Lrow m c (bOf t.val) (qRow t.val r) (key (t.val % 4) k) := by
  refine (score_apply qs (iblk m c 3 t) (iblk m c 4 t) r k).trans ?_
  unfold Lrow logit maskTerm
  refine congrArg₂ (· + ·) (Finset.sum_congr rfl fun d _ => ?_) ?_
  · rw [hq d, mem_apply]
  · rw [mask_apply]

/-- WHAT THE CARRIED SCRATCH HOLDS after point `n`: the projected query rows of the point's block, and for each of them the
    running maximum, normaliser and weighted sum of the recurrence after the point's block of keys; and, at the last
    point of a run of four, the result block holds the weighted sum over the normaliser. -/
def Holds (n : ℕ) (h : n < cfg0.N) : Prop :=
  (∀ (r : Fin 512) (d : Fin 1024), (outsAt0 m c n h).2.1 (ix2 r d) = proj (X0 m c) (X3 m c) (X4 m c) (bOf n) (qRow n r) d)
  ∧ (∀ r : Fin 512, (outsAt0 m c n h).2.2.1 (ix2 r (0 : Fin 1)) = mAt (Lrow m c (bOf n) (qRow n r)) key (n % 4))
  ∧ (∀ r : Fin 512, (outsAt0 m c n h).2.2.2.1 (ix2 r (0 : Fin 1)) = lAt (Lrow m c (bOf n) (qRow n r)) key (n % 4))
  ∧ (∀ (r : Fin 512) (d : Fin 1024), (outsAt0 m c n h).2.2.2.2 (ix2 r d) = accAt (Lrow m c (bOf n) (qRow n r)) (Vcol m c (bOf n) d) key (n % 4))
  ∧ (n % 4 = 3 → ∀ (r : Fin 512) (d : Fin 1024), (outsAt0 m c n h).1 (ix3 (0 : Fin 1) r d)
      = Ideal.div (accAt (Lrow m c (bOf n) (qRow n r)) (Vcol m c (bOf n) d) key (n % 4)) (lAt (Lrow m c (bOf n) (qRow n r)) key (n % 4)))

/-- The projection stored at the first point of a run is the projected query. -/
theorem proj_eq (t : Fin cfg0.N) (r : Fin 512) (d : Fin 1024) :
    k0_pay4 (F := Ideal) (iblk m c 0 t) (iblk m c 1 t) (iblk m c 2 t) (ix2 r d)
      = proj (X0 m c) (X3 m c) (X4 m c) (bOf t.val) (qRow t.val r) d := by
  refine (proj_apply (iblk m c 0 t) (iblk m c 1 t) (iblk m c 2 t) r d).trans ?_
  unfold proj
  refine congrArg₂ (· + ·) (Finset.sum_congr rfl fun i _ => ?_) ?_
  · rw [query_apply, weights_apply]
  · rw [bias_apply]

/-- The first point of a run of four: the projection is stored, and the recurrence starts from −∞, 0, 0. -/
theorem holds_first (t : Fin cfg0.N) (h0 : t.val % 4 = 0) : Holds m c t.val t.isLt := by
  have h1 : ¬t.val % 4 = 3 := by omega
  unfold Holds
  rw [outsAt0_A m c t h0 h1]
  dsimp only
  rw [Pieces.sout_A_0, Pieces.sout_A_1, Pieces.sout_A_2, Pieces.sout_A_3]
  have hs : ∀ (r k : Fin 512), k0_pay9 (F := Ideal) (k0_pay4 (iblk m c 0 t) (iblk m c 1 t) (iblk m c 2 t)) (iblk m c 3 t) (iblk m c 4 t) (ix2 r k)
      = Lrow m c (bOf t.val) (qRow t.val r) (key 0 k) := fun r k => by
    have e := score_eq m c t (k0_pay4 (F := Ideal) (iblk m c 0 t) (iblk m c 1 t) (iblk m c 2 t)) r (proj_eq m c t r) k
    rwa [h0] at e
  have hv : ∀ (k : Fin 512) (d : Fin 1024), (iblk m c 3 t : Vec Ideal S1x512x1024 .f32) (ix3 (0 : Fin 1) k d) = Vcol m c (bOf t.val) d (key 0 k) := fun k d => by
    have e := mem_apply m c t k d
    rwa [h0] at e
  exact ⟨fun r d => proj_eq m c t r d,
    fun r => (first_max _ (iblk m c 3 t) (iblk m c 4 t) _ _ r (hs r) (startMax_apply _)).trans (by rw [h0]),
    fun r => (first_norm _ (iblk m c 3 t) (iblk m c 4 t) _ _ _ r (hs r) (startMax_apply _) (startNorm_apply _)).trans (by rw [h0]),
    fun r d => (first_acc _ (iblk m c 3 t) (iblk m c 4 t) _ _ _ (Vcol m c (bOf t.val)) r (hs r) hv (startMax_apply _) (fun d => startAcc_apply _) d).trans (by rw [h0]),
    fun h3 => absurd h3 h1⟩

/-- A later point of a run: the projection is kept, and the recurrence moves on by one block of keys. -/
theorem holds_next (t : Fin cfg0.N) (h0 : ¬t.val % 4 = 0)
    (ih : Holds m c (t.val - 1) (Nat.lt_of_le_of_lt (Nat.sub_le _ _) t.isLt)) : Holds m c t.val t.isLt := by
  have hpos : t.val - 1 + 1 = t.val := by omega
  have h0' : (t.val - 1 + 1) % 4 ≠ 0 := by rw [hpos]; exact h0
  have hb : bOf (t.val - 1) = bOf t.val := by have e := bOf_succ (t.val - 1) h0'; rw [hpos] at e; exact e.symm
  have hq : ∀ r : Fin 512, qRow (t.val - 1) r = qRow t.val r := fun r => by
    have e := qRow_succ (t.val - 1) h0' r; rw [hpos] at e; exact e.symm
  have hj : t.val % 4 = (t.val - 1) % 4 + 1 := by have e := mod_succ (t.val - 1) h0'; rwa [hpos] at e
  obtain ⟨i0, i1, i2, i3, -⟩ := ih
  simp only [hb, hq] at i0 i1 i2 i3
  have hs : ∀ (r k : Fin 512), k0_pay9 (F := Ideal) (outsAt0 m c (t.val - 1) (Nat.lt_of_le_of_lt (Nat.sub_le _ _) t.isLt)).2.1 (iblk m c 3 t) (iblk m c 4 t) (ix2 r k)
      = Lrow m c (bOf t.val) (qRow t.val r) (key ((t.val - 1) % 4 + 1) k) := fun r k => by
    have e := score_eq m c t (outsAt0 m c (t.val - 1) (Nat.lt_of_le_of_lt (Nat.sub_le _ _) t.isLt)).2.1 r (i0 r) k
    rwa [hj] at e
  have hv : ∀ (k : Fin 512) (d : Fin 1024), (iblk m c 3 t : Vec Ideal S1x512x1024 .f32) (ix3 (0 : Fin 1) k d) = Vcol m c (bOf t.val) d (key ((t.val - 1) % 4 + 1) k) := fun k d => by
    have e := mem_apply m c t k d
    rwa [hj] at e
  unfold Holds
  by_cases h1 : t.val % 4 = 3
  ·
    rw [outsAt0_C m c t h0 h1]
    dsimp only
    rw [Pieces.sout_C_1, Pieces.sout_C_2, Pieces.sout_C_3, Pieces.out_C_5]
    have eN : ∀ r : Fin 512, k0_pay13 (F := Ideal) (outsAt0 m c (t.val - 1) (Nat.lt_of_le_of_lt (Nat.sub_le _ _) t.isLt)).2.1 (iblk m c 3 t) (iblk m c 4 t)
        (outsAt0 m c (t.val - 1) (Nat.lt_of_le_of_lt (Nat.sub_le _ _) t.isLt)).2.2.1 (outsAt0 m c (t.val - 1) (Nat.lt_of_le_of_lt (Nat.sub_le _ _) t.isLt)).2.2.2.1 (ix2 r (0 : Fin 1))
          = lAt (Lrow m c (bOf t.val) (qRow t.val r)) key (t.val % 4) := fun r =>
      (next_norm _ (iblk m c 3 t) (iblk m c 4 t) _ _ _ r ((t.val - 1) % 4) (hs r) (i1 r) (i2 r)).trans (by rw [hj])
    have eA : ∀ (r : Fin 512) (d : Fin 1024), k0_pay1 (F := Ideal) (k0_pay8 (iblk m c 3 t))
        (k0_pay11 (outsAt0 m c (t.val - 1) (Nat.lt_of_le_of_lt (Nat.sub_le _ _) t.isLt)).2.1 (iblk m c 3 t) (iblk m c 4 t) (outsAt0 m c (t.val - 1) (Nat.lt_of_le_of_lt (Nat.sub_le _ _) t.isLt)).2.2.1)
        (k0_pay12 (outsAt0 m c (t.val - 1) (Nat.lt_of_le_of_lt (Nat.sub_le _ _) t.isLt)).2.1 (iblk m c 3 t) (iblk m c 4 t) (outsAt0 m c (t.val - 1) (Nat.lt_of_le_of_lt (Nat.sub_le _ _) t.isLt)).2.2.1)
        (outsAt0 m c (t.val - 1) (Nat.lt_of_le_of_lt (Nat.sub_le _ _) t.isLt)).2.2.2.2 (ix2 r d)
          = accAt (Lrow m c (bOf t.val) (qRow t.val r)) (Vcol m c (bOf t.val) d) key (t.val % 4) := fun r d =>
      (next_acc _ (iblk m c 3 t) (iblk m c 4 t) _ _ _ (Vcol m c (bOf t.val)) r ((t.val - 1) % 4) (hs r) hv (i1 r) (fun d => i3 r d) d).trans (by rw [hj])
    exact ⟨fun r d => i0 r d,
      fun r => (next_max _ (iblk m c 3 t) (iblk m c 4 t) _ _ r ((t.val - 1) % 4) (hs r) (i1 r)).trans (by rw [hj]),
      eN, eA,
      fun _ r d => (result_apply _ _ r d).trans (congrArg₂ Ideal.div (eA r d) (eN r))⟩
  ·
    rw [outsAt0_B m c t h0 h1]
    dsimp only
    rw [Pieces.sout_B_1, Pieces.sout_B_2, Pieces.sout_B_3]
    exact ⟨fun r d => i0 r d,
      fun r => (next_max _ (iblk m c 3 t) (iblk m c 4 t) _ _ r ((t.val - 1) % 4) (hs r) (i1 r)).trans (by rw [hj]),
      fun r => (next_norm _ (iblk m c 3 t) (iblk m c 4 t) _ _ _ r ((t.val - 1) % 4) (hs r) (i1 r) (i2 r)).trans (by rw [hj]),
      fun r d => (next_acc _ (iblk m c 3 t) (iblk m c 4 t) _ _ _ (Vcol m c (bOf t.val)) r ((t.val - 1) % 4) (hs r) hv (i1 r) (fun d => i3 r d) d).trans (by rw [hj]),
      fun h3 => absurd h3 h1⟩

/-- The carried scratch after every point, by induction on the point. -/
theorem holds_all : ∀ (n : ℕ) (h : n < cfg0.N), Holds m c n h
  | 0, h => holds_first m c ⟨0, h⟩ rfl
  | n + 1, h => by
    by_cases h0 : (n + 1) % 4 = 0
    · exact holds_first m c ⟨n + 1, h⟩ h0
    · exact holds_next m c ⟨n + 1, h⟩ h0 (holds_all n (Nat.lt_of_succ_lt h))

end Cert.KernelIdeal.Inv
end
-- ==== Proof.LibChunkMax.lean ====
/-
  The maximum of a long row taken block by block.

  A row of `N` entries is cut into consecutive blocks of `bs` entries.  A running maximum starts at `i` and, block after
  block, becomes the larger of itself and the block's own maximum (itself folded from `i`).  Stated by upper bounds: the
  running maximum before block `k` is below `c` exactly when `i` is and so is every entry before position `bs · k`.
  After the last block this is the bound characterising the maximum of the whole row folded from `i`, so the two are
  equal.  Only that `max` is the least upper bound of two elements is used.
-/
import Mathlib.Data.Finset.Fold
import Mathlib.Order.Basic
import Mathlib.Tactic

namespace Cert.LibChunkMax

variable {β : Type*} [LinearOrder β] {N bs : ℕ}

/-- Before the first block nothing has been seen. -/
theorem bound_zero (f : Fin N → β) (i : β) (c : β) :
    i ≤ c ↔ i ≤ c ∧ ∀ n : Fin N, n.val < bs * 0 → f n ≤ c :=
  ⟨fun h => ⟨h, fun n hn => absurd hn (by simp)⟩, fun h => h.1⟩

/-- One more block: the bound moves `bs` positions on. -/
theorem bound_step (f : Fin N → β) (i acc blk : β) (k : ℕ) (e : Fin bs → Fin N)
    (he : ∀ j, (e j).val = bs * k + j.val)
    (hacc : ∀ c, acc ≤ c ↔ i ≤ c ∧ ∀ n : Fin N, n.val < bs * k → f n ≤ c)
    (hblk : blk = (Finset.univ : Finset (Fin bs)).fold max i (fun j => f (e j))) (c : β) :
    max acc blk ≤ c ↔ i ≤ c ∧ ∀ n : Fin N, n.val < bs * (k + 1) → f n ≤ c := by
  rw [max_le_iff, hacc, hblk, Finset.fold_max_le, Nat.mul_succ]
  constructor
  · rintro ⟨⟨hi, h1⟩, _, h2⟩
    refine ⟨hi, fun n hn => ?_⟩
    by_cases hlt : n.val < bs * k
    · exact h1 n hlt
    · have hj : n.val - bs * k < bs := by omega
      have hn' : n = e ⟨n.val - bs * k, hj⟩ := Fin.ext (by rw [he]; show n.val = bs * k + (n.val - bs * k); omega)
      rw [hn']
      exact h2 _ (Finset.mem_univ _)
  · rintro ⟨hi, h⟩
    refine ⟨⟨hi, fun n hn => h n (by omega)⟩, hi, fun j _ => h (e j) ?_⟩
    rw [he]
    have := j.isLt
    omega

/-- After the last block the running maximum is the maximum of the whole row. -/
theorem eq_fold_of_bound (f : Fin N → β) (i acc : β) (k : ℕ) (hk : bs * k = N)
    (hacc : ∀ c, acc ≤ c ↔ i ≤ c ∧ ∀ n : Fin N, n.val < bs * k → f n ≤ c) :
    acc = (Finset.univ : Finset (Fin N)).fold max i f := by
  refine eq_of_forall_ge_iff fun c => ?_
  rw [hacc, Finset.fold_max_le]
  constructor
  · rintro ⟨hi, h⟩
    exact ⟨hi, fun n _ => h n (by rw [hk]; exact n.isLt)⟩
  · rintro ⟨hi, h⟩
    exact ⟨hi, fun n _ => h n (Finset.mem_univ _)⟩

end Cert.LibChunkMax
-- ==== Proof.LibDivSum.lean ====
/-
  Dividing a finite sum of products by a real number, on the extended reals — general in the index type.

  On the extended reals a quotient by a real number that is not zero is the product with its reciprocal. When the
  factors are real numbers the sums are sums of reals, and `(∑ₖ aₖ wₖ) / c = ∑ₖ (aₖ / c) · wₖ` by distributivity in the
  reals. Beside it: the coercion from the reals commutes with a finite sum, and the larger of the float 1.0 and a real
  number is a real number that is not zero (a clipped degree or count is a legitimate divisor).
-/
import Idealize.ShloMosaic.PureOps.Ideal
import Idealize.ShloMosaic.PureOps.Ideal.Laws
import Idealize.ShloMosaic.Lib.IdealHost

noncomputable section

open scoped BigOperators

namespace Cert.LibDivSum

open Idealize.ShloMosaic

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The larger of the float 1.0 and a real number is a real number that is not zero. -/
theorem clip_real (s : ℝ) : ∃ c : ℝ, max (Ideal.ofBits .f32 0x3F800000#32) (s : EReal) = (c : EReal) ∧ c ≠ 0 := by
  refine ⟨max 1 s, ?_, ?_⟩
  · rw [Ideal.ofBits_one_f32, show (1 : EReal) = ((1 : ℝ) : EReal) by norm_cast]
    exact (Monotone.map_max (fun _ _ h => EReal.coe_le_coe_iff.mpr h)).symm
  · have : (1 : ℝ) ≤ max 1 s := le_max_left _ _
    intro h; rw [h] at this; norm_num at this

/-- Real entries, a real divisor that is not zero: dividing the sum of products is the sum of products of the
    divided weights. -/
theorem div_sum_eq {ι : Type*} [Fintype ι] (a w : ι → EReal) (c : ℝ) (hc : c ≠ 0)
    (ha : ∀ k, ∃ r : ℝ, a k = (r : EReal)) (hw : ∀ k, ∃ r : ℝ, w k = (r : EReal)) :
    Ideal.div (∑ k, a k * w k) (c : EReal) = ∑ k, Ideal.div (a k) (c : EReal) * w k := by
  choose ar har using ha
  choose wr hwr using hw
  have hl : ∑ k, a k * w k = ((∑ k, ar k * wr k : ℝ) : EReal) := by
    rw [coe_sum]
    exact Finset.sum_congr rfl fun k _ => by rw [har, hwr, EReal.coe_mul]
  have hr : ∑ k, Ideal.div (a k) (c : EReal) * w k = ((∑ k, ar k * (1 / c) * wr k : ℝ) : EReal) := by
    rw [coe_sum]
    exact Finset.sum_congr rfl fun k _ => by
      rw [Ideal.div_coe hc, har, hwr, ← EReal.coe_mul, ← EReal.coe_mul]
  rw [Ideal.div_coe hc, hl, hr, ← EReal.coe_mul, Finset.sum_mul]
  refine congrArg (fun t : ℝ => (t : EReal)) (Finset.sum_congr rfl fun k _ => ?_)
  ring

end Cert.LibDivSum

end
-- ==== Proof.LibOnlineSoftmaxLaw.lean ====
/-
  The online row softmax is the softmax of the whole row — general in the row length, the block size and the number of blocks.

  A row of `N = bs · (nb + 1)` real scores `L` with real values `V` is visited in `nb + 1` consecutive blocks of `bs`
  keys.  Write `m_j` for the running maximum after block `j`; it is a real number, the largest score among the keys
  before position `bs · (j + 1)`.  The invariant carried from block to block is

    running weighted sum after block j  =  Σ_{n < bs · (j + 1)} exp (L n − m_j) · V n        (a sum of reals),

  and the running normaliser is the same with every value equal to 1.  On entering block `j + 1` the old sum is
  multiplied by `exp (m_j − m_{j+1})`, and `exp (m_j − m_{j+1}) · exp (L n − m_j) = exp (L n − m_{j+1})`, so the old
  terms become terms relative to the new maximum; the new block contributes its own terms.  Before the first block the
  maximum is −∞, the rescaling factor is `exp (−∞) = 0` and both sums are `0`.  After the last block the maximum is the
  maximum `m` of the whole row, the normaliser `Z = Σ_n exp (L n − m)` is a sum of positive reals, so it is not zero,
  and `(Σ_n exp (L n − m) · V n) / Z = Σ_n (exp (L n − m) / Z) · V n` by distributivity in the reals.

  Sums over the keys before a position are written as sums over a range of naturals of the row extended by zero, so
  that one more block is one more stretch of the range.
-/
import proofs.«140894_j29884382446446_2_alg».proof.Proof.LibOnlineSoftmax
import proofs.«140894_j29884382446446_2_alg».proof.Proof.LibChunkMax
import proofs.«140894_j29884382446446_2_alg».proof.Proof.LibDivSum
import Mathlib.Algebra.BigOperators.Fin
import Mathlib.Algebra.BigOperators.Intervals
import Mathlib.Tactic

noncomputable section

open scoped BigOperators

namespace Cert.OnlineSoftmax

open Idealize.ShloMosaic

variable {N bs : ℕ}

/-! ## Sums over the keys before a position -/

/-- A row of reals extended by zero to all naturals. -/
def extZ (g : Fin N → ℝ) (i : ℕ) : ℝ := if h : i < N then g ⟨i, h⟩ else 0

/-- At the position of a key the extension is the row at that key. -/
theorem extZ_val (g : Fin N → ℝ) (n : Fin N) : extZ g n.val = g n := by
  unfold extZ
  rw [dif_pos n.isLt]

/-- One more block: the sum over the positions before `bs · (j + 1)` is the sum over those before `bs · j` plus the
    terms of block `j`. -/
theorem sum_range_block (g : Fin N → ℝ) (j : ℕ) (ej : Fin bs → Fin N) (hej : ∀ k, (ej k).val = bs * j + k.val) :
    ∑ i ∈ Finset.range (bs * (j + 1)), extZ g i
      = ∑ i ∈ Finset.range (bs * j), extZ g i + ∑ k : Fin bs, g (ej k) := by
  rw [Nat.mul_succ, Finset.sum_range_add]
  congr 1
  exact (Fin.sum_univ_eq_sum_range (fun x => extZ g (bs * j + x)) bs).symm.trans
    (Finset.sum_congr rfl fun k _ => by rw [← hej k, extZ_val])

/-- The sum over all positions is the sum over the row. -/
theorem sum_range_all (g : Fin N → ℝ) : ∑ i ∈ Finset.range N, extZ g i = ∑ n : Fin N, g n := by
  rw [← Fin.sum_univ_eq_sum_range (extZ g) N]
  exact Finset.sum_congr rfl fun n _ => extZ_val g n

/-- Moving to a new maximum: `exp (m − m') · Σ exp (L n − m) · w n = Σ exp (L n − m') · w n`. -/
theorem rescale_sum (Lr w : Fin N → ℝ) (m m' : ℝ) (s : Finset ℕ) :
    Real.exp (m - m') * ∑ i ∈ s, extZ (fun n => Real.exp (Lr n - m) * w n) i
      = ∑ i ∈ s, extZ (fun n => Real.exp (Lr n - m') * w n) i := by
  rw [Finset.mul_sum]
  refine Finset.sum_congr rfl fun i _ => ?_
  unfold extZ
  split_ifs with h
  · rw [← mul_assoc, ← Real.exp_add]
    congr 2
    ring
  · exact mul_zero _

/-! ## The running maximum is a real number, and at the end the maximum of the whole row -/

/-- A maximum of real numbers folded from −∞ is −∞ or a real number. -/
theorem fold_max_real {ι : Type*} (s : Finset ι) (F : ι → EReal) (hF : ∀ i, ∃ r : ℝ, F i = (r : EReal)) :
    s.fold max ⊥ F = ⊥ ∨ ∃ r : ℝ, s.fold max ⊥ F = (r : EReal) := by
  classical
  induction s using Finset.induction_on with
  | empty => exact Or.inl Finset.fold_empty
  | insert a s ha ih =>
    obtain ⟨r, hr⟩ := hF a
    rw [Finset.fold_insert ha, hr]
    rcases ih with h | ⟨q, hq⟩
    · exact Or.inr ⟨r, by rw [h, max_eq_left bot_le]⟩
    · exact Or.inr ⟨max r q, by
        rw [hq]
        exact (Monotone.map_max (fun _ _ h => EReal.coe_le_coe_iff.mpr h)).symm⟩

/-- The largest score of a block that is not empty is a real number. -/
theorem blockMax_real (hbs : 0 < bs) (L : Fin N → EReal) (e : ℕ → Fin bs → Fin N)
    (hL : ∀ n, ∃ r : ℝ, L n = (r : EReal)) (j : ℕ) : ∃ b : ℝ, blockMax L e j = (b : EReal) := by
  rcases fold_max_real Finset.univ (fun k => L (e j k)) (fun k => hL _) with h | h
  · exfalso
    obtain ⟨r, hr⟩ := hL (e j ⟨0, hbs⟩)
    have hle : L (e j ⟨0, hbs⟩) ≤ (Finset.univ : Finset (Fin bs)).fold max ⊥ (fun k => L (e j k)) :=
      ((Finset.fold_max_le (f := fun k : Fin bs => L (e j k)) (b := ⊥) (s := Finset.univ) _).mp le_rfl).2
        (⟨0, hbs⟩ : Fin bs) (Finset.mem_univ _)
    rw [h, hr] at hle
    exact EReal.coe_ne_bot r (le_bot_iff.mp hle)
  · exact h

/-- The running maximum is a real number after every block. -/
theorem mAt_real (hbs : 0 < bs) (L : Fin N → EReal) (e : ℕ → Fin bs → Fin N)
    (hL : ∀ n, ∃ r : ℝ, L n = (r : EReal)) (j : ℕ) : ∃ m : ℝ, mAt L e j = (m : EReal) := by
  induction j with
  | zero =>
    obtain ⟨b, hb⟩ := blockMax_real hbs L e hL 0
    exact ⟨b, by rw [mAt, hb, max_eq_right bot_le]⟩
  | succ j ih =>
    obtain ⟨m, hm⟩ := ih
    obtain ⟨b, hb⟩ := blockMax_real hbs L e hL (j + 1)
    exact ⟨max m b, by
      rw [mAt, hm, hb]
      exact (Monotone.map_max (fun _ _ h => EReal.coe_le_coe_iff.mpr h)).symm⟩

/-- The running maximum after block `j` is below `c` exactly when every score before position `bs · (j + 1)` is. -/
theorem mAt_bound (nb : ℕ) (L : Fin N → EReal) (e : ℕ → Fin bs → Fin N)
    (he : ∀ j, j ≤ nb → ∀ k : Fin bs, (e j k).val = bs * j + k.val) (j : ℕ) (hj : j ≤ nb) (c : EReal) :
    mAt L e j ≤ c ↔ (⊥ : EReal) ≤ c ∧ ∀ n : Fin N, n.val < bs * (j + 1) → L n ≤ c := by
  induction j generalizing c with
  | zero =>
    rw [mAt]
    exact LibChunkMax.bound_step L ⊥ ⊥ (blockMax L e 0) 0 (e 0) (he 0 hj)
      (fun c => LibChunkMax.bound_zero L ⊥ c) rfl c
  | succ j ih =>
    rw [mAt]
    exact LibChunkMax.bound_step L ⊥ (mAt L e j) (blockMax L e (j + 1)) (j + 1) (e (j + 1)) (he (j + 1) hj)
      (fun c => ih (Nat.le_of_succ_le hj) c) rfl c

/-! ## The invariant -/

/-- The normaliser is the weighted sum of the constant values 1. -/
theorem lAt_eq_accAt_one (L : Fin N → EReal) (e : ℕ → Fin bs → Fin N) (j : ℕ) :
    lAt L e j = accAt L (fun _ => 1) e j := by
  induction j with
  | zero => simp only [lAt, accAt, mul_one]
  | succ j ih => simp only [lAt, accAt, mul_one, ih]

/-- After block `j` the running weighted sum is the sum, over the keys before position `bs · (j + 1)`, of
    `exp (L n − m) · V n` with `m` the running maximum after that block. -/
theorem accAt_eq (nb : ℕ) (L V : Fin N → EReal) (e : ℕ → Fin bs → Fin N)
    (he : ∀ j, j ≤ nb → ∀ k : Fin bs, (e j k).val = bs * j + k.val)
    (Lr Vr : Fin N → ℝ) (hLr : ∀ n, L n = (Lr n : EReal)) (hVr : ∀ n, V n = (Vr n : EReal))
    (hmr : ∀ j, ∃ m : ℝ, mAt L e j = (m : EReal)) (j : ℕ) (hj : j ≤ nb) (m : ℝ) (hm : mAt L e j = (m : EReal)) :
    accAt L V e j
      = ((∑ i ∈ Finset.range (bs * (j + 1)), extZ (fun n => Real.exp (Lr n - m) * Vr n) i : ℝ) : EReal) := by
  induction j generalizing m with
  | zero =>
    have hp : ∀ k : Fin bs,
        pAt L e 0 k * V (e 0 k) = ((Real.exp (Lr (e 0 k) - m) * Vr (e 0 k) : ℝ) : EReal) := fun k => by
      rw [pAt, hm, hLr, hVr, ← EReal.coe_sub, Ideal.exp_coe, ← EReal.coe_mul]
    rw [accAt, mul_zero, zero_add, Finset.sum_congr rfl fun k _ => hp k, ← LibDivSum.coe_sum,
      sum_range_block _ 0 (e 0) (he 0 hj), Nat.mul_zero, Finset.range_zero, Finset.sum_empty, zero_add]
  | succ j ih =>
    obtain ⟨m0, hm0⟩ := hmr j
    have hp : ∀ k : Fin bs, pAt L e (j + 1) k * V (e (j + 1) k)
        = ((Real.exp (Lr (e (j + 1) k) - m) * Vr (e (j + 1) k) : ℝ) : EReal) := fun k => by
      rw [pAt, hm, hLr, hVr, ← EReal.coe_sub, Ideal.exp_coe, ← EReal.coe_mul]
    have ha : aAt L e (j + 1) = ((Real.exp (m0 - m) : ℝ) : EReal) := by
      rw [aAt, hm0, hm, ← EReal.coe_sub, Ideal.exp_coe]
    rw [accAt, ha, ih (Nat.le_of_succ_le hj) m0 hm0, Finset.sum_congr rfl fun k _ => hp k, ← LibDivSum.coe_sum,
      ← EReal.coe_mul, ← EReal.coe_add, rescale_sum, sum_range_block _ (j + 1) (e (j + 1)) (he (j + 1) hj)]

/-! ## The online softmax is the softmax -/

theorem online_eq_softmax {N bs : ℕ} (nb : ℕ) (hN : bs * (nb + 1) = N) (hbs : 0 < bs) (L V : Fin N → EReal)
    (e : ℕ → Fin bs → Fin N)
    (he : ∀ j, j ≤ nb → ∀ k : Fin bs, (e j k).val = bs * j + k.val)
    (hL : ∀ n, ∃ r : ℝ, L n = (r : EReal)) (hV : ∀ n, ∃ r : ℝ, V n = (r : EReal)) :
    Ideal.div (accAt L V e nb) (lAt L e nb)
      = ∑ n : Fin N, Ideal.div (Ideal.exp (L n - (Finset.univ : Finset (Fin N)).fold max ⊥ L)) (∑ n' : Fin N, Ideal.exp (L n' - (Finset.univ : Finset (Fin N)).fold max ⊥ L)) * V n := by
  have hmr := mAt_real hbs L e hL
  obtain ⟨m, hm⟩ := hmr nb
  -- the running maximum after the last block is the maximum of the whole row
  have hfold : (Finset.univ : Finset (Fin N)).fold max ⊥ L = (m : EReal) := by
    rw [← hm]
    exact (LibChunkMax.eq_fold_of_bound L ⊥ (mAt L e nb) (nb + 1) hN
      (fun c => mAt_bound nb L e he nb le_rfl c)).symm
  choose Lr hLr using hL
  choose Vr hVr using hV
  -- the two running sums after the last block, as sums of reals over the whole row
  have hacc := accAt_eq nb L V e he Lr Vr hLr hVr hmr nb le_rfl m hm
  have hl : lAt L e nb
      = ((∑ i ∈ Finset.range (bs * (nb + 1)), extZ (fun n => Real.exp (Lr n - m) * 1) i : ℝ) : EReal) := by
    rw [lAt_eq_accAt_one]
    exact accAt_eq nb L (fun _ => 1) e he Lr (fun _ => 1) hLr (fun _ => EReal.coe_one.symm) hmr nb le_rfl m hm
  rw [hN, sum_range_all] at hacc hl
  simp only [mul_one] at hl
  -- the normaliser is a sum of positive reals over a row that is not empty
  have hNpos : 0 < N := by
    rw [← hN]
    exact Nat.mul_pos hbs (Nat.succ_pos nb)
  have hZ : (∑ n : Fin N, Real.exp (Lr n - m)) ≠ 0 :=
    (Finset.sum_pos (fun n _ => Real.exp_pos _) ⟨⟨0, hNpos⟩, Finset.mem_univ _⟩).ne'
  have hexp : ∀ n, Ideal.exp (L n - (m : EReal)) = ((Real.exp (Lr n - m) : ℝ) : EReal) := fun n => by
    rw [hLr, ← EReal.coe_sub, Ideal.exp_coe]
  have hsum : ∑ n : Fin N, ((Real.exp (Lr n - m) : ℝ) : EReal) * V n
      = ((∑ n : Fin N, Real.exp (Lr n - m) * Vr n : ℝ) : EReal) := by
    rw [LibDivSum.coe_sum]
    exact Finset.sum_congr rfl fun n _ => by rw [EReal.coe_mul, hVr]
  rw [hacc, hl, hfold]
  simp only [hexp]
  rw [← LibDivSum.coe_sum, ← hsum]
  exact LibDivSum.div_sum_eq (fun n => ((Real.exp (Lr n - m) : ℝ) : EReal)) V _ hZ (fun n => ⟨_, rfl⟩)
    (fun n => ⟨Vr n, hVr n⟩)

end Cert.OnlineSoftmax

end
-- ==== Proof.LibRealSplit.lean ====
/-
  Real numbers inside the extended reals: finite sums, a square root, and an inner product taken over leading parts and
  residuals.

  A finite sum of real numbers taken in the extended reals is a real number (nonnegative if the terms are); the root of
  a nonnegative real is the real root; and when two vectors `u`, `v` have real entries, writing each as a leading part
  (itself) plus a residual (itself minus itself, which is `0` exactly because the entry is finite: `⊤ − ⊤ = ⊥`) and
  summing leading·leading + leading·residual + residual·leading gives the plain inner product `∑ u·v`. The last is
  what remains, on the extended reals, of computing a product of two high-precision matrices as three products of their
  low-precision leading parts and residuals.
-/
import Idealize.ShloMosaic.PureOps.Ideal
import Idealize.ShloMosaic.PureOps.Ideal.Laws

noncomputable section

open scoped BigOperators

namespace Cert.LibRealSplit

open Idealize.ShloMosaic

/-! ## Finite sums of reals -/

/-- A finite sum of real numbers, taken in the extended reals, is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A finite sum of nonnegative real numbers is a nonnegative real number. -/
theorem nonneg_real_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by rw [Finset.sum_empty, EReal.coe_zero]⟩
  | insert a s ha ih =>
    obtain ⟨r, hr0, hr⟩ := h a (Finset.mem_insert_self a s)
    obtain ⟨q, hq0, hq⟩ := ih fun i hi => h i (Finset.mem_insert_of_mem hi)
    exact ⟨r + q, add_nonneg hr0 hq0, by rw [Finset.sum_insert ha, hr, hq, EReal.coe_add]⟩

/-- The root of a nonnegative real is the real root. -/
theorem sqrt_coe {r : ℝ} (h : 0 ≤ r) : Ideal.sqrt (r : EReal) = ((Real.sqrt r : ℝ) : EReal) := by
  show (if r < 0 then ⊥ else (Real.sqrt r : EReal)) = _
  rw [if_neg (not_lt.2 h)]

/-! ## The residual products vanish -/

/-- For vectors with real entries the leading-part-and-residual inner product is the plain inner product. -/
theorem split_sum_eq {M : ℕ} (pq pk : Fin M → EReal) (hq : ∀ j, ∃ r : ℝ, pq j = (r : EReal))
    (hk : ∀ j, ∃ r : ℝ, pk j = (r : EReal)) :
    (∑ j, pq j * pk j) + (∑ j, pq j * (pk j - pk j)) + (∑ j, (pq j - pq j) * pk j) = ∑ j, pq j * pk j := by
  have h0 : ∀ z : EReal, (∃ r : ℝ, z = (r : EReal)) → z - z = 0 := by
    rintro z ⟨r, rfl⟩
    rw [← EReal.coe_sub, sub_self, EReal.coe_zero]
  have eq : ∀ j, pq j - pq j = 0 := fun j => h0 _ (hq j)
  have ek : ∀ j, pk j - pk j = 0 := fun j => h0 _ (hk j)
  simp only [eq, ek, mul_zero, zero_mul, Finset.sum_const_zero, add_zero]

end Cert.LibRealSplit

end
-- ==== Proof.LogitReal.lean ====
/-
  The scores are real numbers when the float arguments are.

  A score is a finite sum of products of projected-query entries and memory entries plus the mask term.  A projected
  query entry is a finite sum of products of real numbers plus a real number; the mask term is the product of
  `1 − mask` (the float word 1.0 is the real number 1, the mask an integer) and the float word `0xC9742400`, whose
  exponent field is not all ones, so it denotes a real number.  Sums, differences and products of real numbers, taken
  in the extended reals, are real numbers.
-/
import proofs.«140894_j29884382446446_2_alg».proof.Proof.AttnSpec
import proofs.«140894_j29884382446446_2_alg».proof.Proof.LibRealSplit
import Idealize.ShloMosaic.Lib.IdealHost

noncomputable section

open scoped BigOperators

namespace Cert.AttnSpec

open Idealize.ShloMosaic Idealize.ShloMosaic.ValueIdx

/-- The float word `0xC9742400` has exponent field 146, not all ones: it denotes a real number. -/
theorem ofBits_maskWord_real : ∃ r : ℝ, Ideal.ofBits .f32 0xC9742400#32 = (r : EReal) := by
  show ∃ r : ℝ, Ideal.ieee 8 23 (0xC9742400#32) = (r : EReal)
  have h : ((0xC9742400#32 : BitVec 32).extractLsb' 23 8).toNat ≠ 2 ^ 8 - 1 := by decide
  unfold Ideal.ieee
  simp only []
  rw [if_neg h]
  split_ifs
  all_goals exact ⟨_, rfl⟩

theorem add_real (a c : EReal) (ha : ∃ r : ℝ, a = (r : EReal)) (hc : ∃ r : ℝ, c = (r : EReal)) :
    ∃ r : ℝ, a + c = (r : EReal) := by
  obtain ⟨r, rfl⟩ := ha
  obtain ⟨s, rfl⟩ := hc
  exact ⟨r + s, (EReal.coe_add r s).symm⟩

theorem sub_real (a c : EReal) (ha : ∃ r : ℝ, a = (r : EReal)) (hc : ∃ r : ℝ, c = (r : EReal)) :
    ∃ r : ℝ, a - c = (r : EReal) := by
  obtain ⟨r, rfl⟩ := ha
  obtain ⟨s, rfl⟩ := hc
  exact ⟨r - s, (EReal.coe_sub r s).symm⟩

theorem mul_real (a c : EReal) (ha : ∃ r : ℝ, a = (r : EReal)) (hc : ∃ r : ℝ, c = (r : EReal)) :
    ∃ r : ℝ, a * c = (r : EReal) := by
  obtain ⟨r, rfl⟩ := ha
  obtain ⟨s, rfl⟩ := hc
  exact ⟨r * s, (EReal.coe_mul r s).symm⟩

/-- A projected query entry is a real number. -/
theorem proj_real (x0 : SQ.Idx → EReal) (x3 : SW.Idx → EReal) (x4 : SB.Idx → EReal)
    (h0 : ∀ i, ∃ r : ℝ, x0 i = (r : EReal)) (h3 : ∀ i, ∃ r : ℝ, x3 i = (r : EReal))
    (h4 : ∀ i, ∃ r : ℝ, x4 i = (r : EReal)) (b : Fin 8) (q : Fin 2048) (o : Fin 1024) :
    ∃ r : ℝ, proj x0 x3 x4 b q o = (r : EReal) := by
  unfold proj
  exact add_real _ _ (LibRealSplit.real_sum _ _ fun i _ => mul_real _ _ (h0 _) (h3 _)) (h4 _)

/-- The mask term is a real number. -/
theorem maskTerm_real (x2 : SM.Idx → BitVec 32) (b : Fin 8) (q k : Fin 2048) :
    ∃ r : ℝ, maskTerm x2 b q k = (r : EReal) := by
  unfold maskTerm
  refine mul_real _ _ (sub_real _ _ ⟨1, ?_⟩ ⟨_, rfl⟩) ofBits_maskWord_real
  rw [Ideal.ofBits_one_f32, EReal.coe_one]

/-- A score is a real number. -/
theorem logit_real (x0 x1 : SQ.Idx → EReal) (x2 : SM.Idx → BitVec 32) (x3 : SW.Idx → EReal) (x4 : SB.Idx → EReal)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal))
    (b : Fin 8) (q k : Fin 2048) : ∃ r : ℝ, logit x0 x1 x2 x3 x4 b q k = (r : EReal) := by
  unfold logit
  exact add_real _ _
    (LibRealSplit.real_sum _ _ fun d _ => mul_real _ _ (proj_real x0 x3 x4 h0 h3 h4 b q d) (h1 _))
    (maskTerm_real x2 b q k)

end Cert.AttnSpec

end
-- ==== Proof.AttnFinal.lean ====
/-
  The online softmax over the four blocks of 512 keys gives the attention result.

  For batch `b`, query row `q` and feature `d`, take as scores the 2048 scores of the row and as values the `d`-th
  feature of the 2048 memory rows.  The scores and the values are real numbers, the blocks of keys are consecutive
  (key `k` of block `j` is key `512 · j + k` of the row, for `j ≤ 3`), and `512 · 4 = 2048`; so the online recurrence's
  weighted sum over its normaliser after the fourth block is the softmax of the whole row against the values, which
  is the attention result entry by its definition.
-/
import proofs.«140894_j29884382446446_2_alg».proof.Proof.AttnSpec
import proofs.«140894_j29884382446446_2_alg».proof.Proof.AttnKeys
import proofs.«140894_j29884382446446_2_alg».proof.Proof.LibOnlineSoftmaxLaw
import proofs.«140894_j29884382446446_2_alg».proof.Proof.LogitReal

noncomputable section

open scoped BigOperators

namespace Cert.AttnSpec

open Idealize.ShloMosaic Idealize.ShloMosaic.ValueIdx

theorem final_entry (x0 x1 : SQ.Idx → EReal) (x2 : SM.Idx → BitVec 32) (x3 : SW.Idx → EReal) (x4 : SB.Idx → EReal)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal))
    (b : Fin 8) (q : Fin 2048) (d : Fin 1024) :
    Ideal.div
        (Cert.OnlineSoftmax.accAt (fun n => logit x0 x1 x2 x3 x4 b q n) (fun n => x1 (ValueIdx.ix3 b n d))
          Cert.AttnKeys.key 3)
        (Cert.OnlineSoftmax.lAt (fun n => logit x0 x1 x2 x3 x4 b q n) Cert.AttnKeys.key 3)
      = out x0 x1 x2 x3 x4 b q d :=
  Cert.OnlineSoftmax.online_eq_softmax (N := 2048) (bs := 512) 3 (by norm_num) (by norm_num)
    (fun n => logit x0 x1 x2 x3 x4 b q n) (fun n => x1 (ValueIdx.ix3 b n d)) Cert.AttnKeys.key
    (fun j hj k => Cert.AttnKeys.key_val j hj k)
    (fun n => logit_real x0 x1 x2 x3 x4 h0 h1 h3 h4 b q n) (fun n => h1 (ValueIdx.ix3 b n d))

end Cert.AttnSpec

end
-- ==== Proof.KernelValue.lean ====
/-
  The kernel's result array.

  The result window is written back at the last point of every run of four; what is written back is the weighted sum
  over the normaliser after all four blocks of keys, which for real scores is the softmax-weighted average of the memory
  rows (the online recurrence against the whole-row softmax).  The written blocks tile the array, so the array ends
  holding the attention result at every index.
-/
import proofs.«140894_j29884382446446_2_alg».proof.Proof.KernelInvariant
import proofs.«140894_j29884382446446_2_alg».proof.Proof.KernelReads
import proofs.«140894_j29884382446446_2_alg».proof.Proof.AttnFinal
import proofs.«140894_j29884382446446_2_alg».proof.Proof.Gen.KernelIdeal.Value

set_option maxRecDepth 16384

noncomputable section

namespace Cert.KernelIdeal.AttnValue

open Cert.KernelIdeal Cert.KernelIdeal.Gen Cert.KernelIdeal.Blocks Cert.KernelIdeal.Inv
open Cert.OnlineSoftmax Cert.AttnKeys Cert.AttnSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The attention result of core `c`'s argument arrays. -/
abbrev result (c : Dev nD) : S8x2048x1024.Idx → EReal := outArr (X0 m c) (X1 m c) (X2 m c) (X3 m c) (X4 m c)

/-- Every float argument entry of core `c` is a real number. -/
def RealArgs (c : Dev nD) : Prop :=
  (∀ i, ∃ r : ℝ, X0 m c i = (r : EReal)) ∧ (∀ i, ∃ r : ℝ, X1 m c i = (r : EReal))
  ∧ (∀ i, ∃ r : ℝ, X3 m c i = (r : EReal)) ∧ (∀ i, ∃ r : ℝ, X4 m c i = (r : EReal))

/-- What a write-back writes is the point's block of the attention result. -/
theorem flushed_eq (c : Dev nD) (hr : RealArgs m c) (t : Fin cfg0.N) (hf : (cfg0.win 5).flush t = true) :
    (dats m 0 c).flushed 5 t = ((cfg0.win 5).blk t).view.read (Elt Ideal) (result m c) := by
  have h3 : t.val % 4 = 3 := (flush0_5 t).mp hf
  obtain ⟨-, -, -, -, h5⟩ := holds_all m c t.val t.isLt
  obtain ⟨r0, r1, r3, r4⟩ := hr
  rw [Value.flushed5]
  have entry : ∀ y : S1x512x1024.Idx,
      (outsAt0 m c t.val t.isLt).1 y = result m c (((cfg0.win 5).blk t).view.emb y) := fun y => by
    obtain ⟨u, r, d, rfl⟩ : ∃ (u : Fin 1) (r : Fin 512) (d : Fin 1024), y = ix3 u r d := ⟨y 0, y 1, y 2, eq_ix3 y⟩
    obtain rfl : u = 0 := Subsingleton.elim _ _
    rw [out_emb, h5 h3 r d, h3]
    exact final_entry (X0 m c) (X1 m c) (X2 m c) (X3 m c) (X4 m c) r0 r1 r3 r4 (bOf t.val) (qRow t.val r) d
  funext y
  exact entry y

/-- The result array after the run: the attention result. -/
theorem final (c : Dev nD) (hr : RealArgs m c) : (dats m 0 c).arrAt 5 cfg0.N = result m c :=
  (dats m 0 c).arrAt_eq_of_cover 5 (result m c) (flushed_eq m c hr) cover5

/-- The kernel's run, read: the result array holds the attention result of the argument arrays, which are unchanged. -/
theorem run (hreal : ∀ c : Dev nD, RealArgs m c) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hreal c)), (h c).2⟩) (Value.run_blocks m ρ)

end Cert.KernelIdeal.AttnValue

end
-- ==== Proof.LibHostLastMax.lean ====
/-
  The host's largest entry along the last axis of a rank-3 array, read at an index — general in the extents.

  A one-operand reduction with a maximum body along the last axis of an `a × b × c` array reads, at `(p, q)`, the fold
  of `max`, from the initial value, over the entries `(p, q, k)`: over the extended reals `max` is commutative and
  associative, so the order of the fold does not matter.  And taking the maximum of such a fold with its own starting
  value once more changes nothing (a softmax's row maximum is printed that way).
-/
import Idealize.ShloMosaic.Lib.ValueIdx
import Idealize.ShloMosaic.PureOps.Ideal.Laws

noncomputable section

namespace Cert.LibHostLastMax

open Idealize.ShloMosaic Idealize.ShloMosaic.ValueIdx

/-- Over the extended reals the host's reduction by `max` of an `a × b × c` array along its last axis reads, at
    `(p, q)`, the fold of `max` from the initial value over `k` of the entries `(p, q, k)`. -/
theorem hostLastMax_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k : Fin c => x (ix3 p q k)) := by
  refine (Host.reduce_eq_fold_single FloatOps.maximumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold max (init (Shape.Idx.first hu)) f (Finset.univ : Finset (Fin c))) hf

/-- The maximum of a fold of `max` with the fold's own starting value is the fold. -/
theorem max_init_fold {ι : Type} (s : Finset ι) (init : EReal) (f : ι → EReal) :
    max init (s.fold max init f) = s.fold max init f :=
  max_eq_right ((Finset.le_fold_max init).mpr (Or.inl le_rfl))

end Cert.LibHostLastMax

end
-- ==== Proof.RefAttn.lean ====
/-
  The reference program computes the specification.

  The reference is a masked softmax attention with a linear projection of the query. Its stages, read at explicit
  coordinates (batch b, query row q, key k, feature d or o), are exactly the named functions of the specification:

    the sum of the projection's products plus the bias            is  proj b q o;
    (1 − mask) · (−10⁶), with both float words kept as words      is  maskTerm b q k;
    the sum over features of proj · memory, plus the mask term    is  logit b q k;
    the maximum of −∞ with the fold of max from −∞ over the keys  is  rowMax b q
        (taking the maximum of a fold with its own starting value changes nothing);
    exp (logit − rowMax)                                          is  weight b q k;
    0 plus the sum over the keys of the weights                   is  norm b q;
    the sum over the keys of (weight / norm) · memory             is  out b q d.

  Every product keeps the operand order of the program, and every operation on the extended reals is exact, so each
  stage is an equality with no hypothesis on the arguments: no finiteness is used.
  The index functions the stages are read through send coordinates to coordinates; each such equation is checked
  axis by axis.
-/
import proofs.«140894_j29884382446446_2_alg».proof.Proof.Gen.ReferenceIdeal.Read
import proofs.«140894_j29884382446446_2_alg».proof.Proof.AttnSpec
import proofs.«140894_j29884382446446_2_alg».proof.Proof.LibHostLastMax
import Idealize.ShloMosaic.Lib.ValueIdx
import Idealize.ShloMosaic.PureOps.Ideal
import Idealize.ShloMosaic.PureOps.Ideal.Laws

noncomputable section

open scoped BigOperators

namespace Cert.RefAttn

open Cert.ReferenceIdeal Cert.ReferenceIdeal.Read Idealize.ShloMosaic Idealize.ShloMosaic.ValueIdx

section Stages

variable (x0 x1 : (⟨S8x2048x1024, .f32⟩ : BufTy).Contents (Elt Ideal))
  (x2 : (⟨S8x2048x2048, .i32⟩ : BufTy).Contents (Elt Ideal))
  (x3 : (⟨S1024x1024, .f32⟩ : BufTy).Contents (Elt Ideal))
  (x4 : (⟨S1024, .f32⟩ : BufTy).Contents (Elt Ideal))

/-- The projected query: entry (b, q, o) is Σᵢ query[b,q,i] · W[o,i], plus bias[o]. The bias reaches the entry
    through two broadcasts, which keep only the feature coordinate. -/
theorem proj_stage (b : Fin 8) (q : Fin 2048) (o : Fin 1024) :
    val_main_v3 (F := Ideal) x0 x3 x4 (ix3 b q o) = Cert.AttnSpec.proj x0 x3 x4 b q o := by
  have el : ∀ k : Fin 1024, lidx_main_v0 (ix3 b q o) k = ix3 b q k := fun k =>
    funext fun a => Fin.ext (by match a with | ⟨0, _⟩ => rfl | ⟨1, _⟩ => rfl | ⟨2, _⟩ => rfl)
  have er : ∀ k : Fin 1024, ridx_main_v0 (ix3 b q o) k = ix2 o k := fun k =>
    funext fun a => Fin.ext (by match a with | ⟨0, _⟩ => rfl | ⟨1, _⟩ => rfl)
  have eb : idx_main_v1 (idx_main_v2 (ix3 b q o)) = ix1 o :=
    funext fun a => Fin.ext (by match a with | ⟨0, _⟩ => rfl)
  rw [val_main_v3_apply, val_main_v0_apply, val_main_v2_apply, val_main_v1_apply, eb]
  simp only [el, er]
  rfl

/-- The additive mask term: (1 − mask[b,q,k]) · (−10⁶), the mask read as a signed integer; the words for 1 and
    −10⁶ are the same words on both sides and are never evaluated. -/
theorem mask_stage (b : Fin 8) (q k : Fin 2048) :
    val_main_v8 (F := Ideal) x2 (ix3 b q k) = Cert.AttnSpec.maskTerm x2 b q k := by
  rw [val_main_v8_apply, val_main_v6_apply, val_main_v5_apply, val_main_cst_apply, val_main_v4_apply,
    val_main_v7_apply, val_main_cst_0_apply]
  rfl

/-- The score of key k for query row q: Σ_d proj[b,q,d] · memory[b,k,d], plus the mask term. -/
theorem logit_stage (b : Fin 8) (q k : Fin 2048) :
    val_main_v10 (F := Ideal) x0 x1 x2 x3 x4 (ix3 b q k) = Cert.AttnSpec.logit x0 x1 x2 x3 x4 b q k := by
  have el : ∀ d : Fin 1024, lidx_main_v9 (ix3 b q k) d = ix3 b q d := fun d =>
    funext fun a => Fin.ext (by match a with | ⟨0, _⟩ => rfl | ⟨1, _⟩ => rfl | ⟨2, _⟩ => rfl)
  have er : ∀ d : Fin 1024, ridx_main_v9 (ix3 b q k) d = ix3 b k d := fun d =>
    funext fun a => Fin.ext (by match a with | ⟨0, _⟩ => rfl | ⟨1, _⟩ => rfl | ⟨2, _⟩ => rfl)
  rw [val_main_v10_apply, val_main_v9_apply, mask_stage]
  simp only [el, er, proj_stage]
  rfl

/-- The f32 word 0xFF800000 denotes −∞. -/
theorem neg_inf_word : Ideal.ofBits .f32 0xFF800000#32 = (⊥ : EReal) := by simp [Ideal.ofBits, Ideal.ieee]

/-- The row's largest score. The program reduces the scores by max along the key axis starting from −∞, then takes
    the maximum with −∞ once more; the reduction is the fold of max from −∞ over the keys, and the second maximum
    with the fold's own starting value changes nothing. -/
theorem rowMax_stage (b : Fin 8) (q : Fin 2048) :
    val_main_v13 (F := Ideal) x0 x1 x2 x3 x4 (ix2 b q) = Cert.AttnSpec.rowMax x0 x1 x2 x3 x4 b q := by
  rw [val_main_v13_apply, val_main_v12_apply, val_main_cst_2_apply]
  unfold val_main_v11
  rw [Cert.LibHostLastMax.hostLastMax_apply (val_main_v10 (F := Ideal) x0 x1 x2 x3 x4) (val_main_cst_1 (F := Ideal))
    Gen.reducesTo_S8x2048x2048_S8x2048_d2 (by decide) Gen.h_S_ b q, val_main_cst_1_apply]
  simp only [logit_stage, Ideal.ofBits_def, Ideal.maximumf_def, neg_inf_word]
  unfold Cert.AttnSpec.rowMax
  exact Cert.LibHostLastMax.max_init_fold _ _ _

/-- The unnormalised softmax weight: exp (logit − rowMax); the row maximum reaches the entry through two broadcasts,
    which keep the batch and the query row. -/
theorem weight_stage (b : Fin 8) (q k : Fin 2048) :
    val_main_v17 (F := Ideal) x0 x1 x2 x3 x4 (ix3 b q k) = Cert.AttnSpec.weight x0 x1 x2 x3 x4 b q k := by
  have e : idx_main_v14 (idx_main_v15 (ix3 b q k)) = ix2 b q :=
    funext fun a => Fin.ext (by match a with | ⟨0, _⟩ => rfl | ⟨1, _⟩ => rfl)
  rw [val_main_v17_apply, val_main_v16_apply, val_main_v15_apply, val_main_v14_apply, e, logit_stage, rowMax_stage]
  rfl

/-- The softmax normaliser: the sum over the keys of the weights, started from the zero word, which denotes 0. -/
theorem norm_stage (b : Fin 8) (q : Fin 2048) :
    val_main_v18 (F := Ideal) x0 x1 x2 x3 x4 (ix2 b q) = Cert.AttnSpec.norm x0 x1 x2 x3 x4 b q := by
  have e : ∀ k : Fin 2048, idx_main_v18 (ix2 b q) k = ix3 b q k := fun k =>
    funext fun a => Fin.ext (by match a with | ⟨0, _⟩ => rfl | ⟨1, _⟩ => rfl | ⟨2, _⟩ => rfl)
  rw [val_main_v18_apply, val_main_cst_3_apply]
  simp only [e, weight_stage, Ideal.ofBits_def, Ideal.ofBits_zero_f32, zero_add]
  rfl

/-- The attention result: Σ_k (weight[b,q,k] / norm[b,q]) · memory[b,k,d]; the normaliser reaches the entry through
    two broadcasts, which keep the batch and the query row. -/
theorem out_stage (b : Fin 8) (q : Fin 2048) (d : Fin 1024) :
    val_main_v22 (F := Ideal) x0 x1 x2 x3 x4 (ix3 b q d) = Cert.AttnSpec.out x0 x1 x2 x3 x4 b q d := by
  have el : ∀ k : Fin 2048, lidx_main_v22 (ix3 b q d) k = ix3 b q k := fun k =>
    funext fun a => Fin.ext (by match a with | ⟨0, _⟩ => rfl | ⟨1, _⟩ => rfl | ⟨2, _⟩ => rfl)
  have er : ∀ k : Fin 2048, ridx_main_v22 (ix3 b q d) k = ix3 b k d := fun k =>
    funext fun a => Fin.ext (by match a with | ⟨0, _⟩ => rfl | ⟨1, _⟩ => rfl | ⟨2, _⟩ => rfl)
  have en : ∀ k : Fin 2048, idx_main_v19 (idx_main_v20 (ix3 b q k)) = ix2 b q := fun k =>
    funext fun a => Fin.ext (by match a with | ⟨0, _⟩ => rfl | ⟨1, _⟩ => rfl)
  rw [val_main_v22_apply]
  simp only [el, er, val_main_v21_apply, val_main_v20_apply, val_main_v19_apply, en, weight_stage, norm_stage,
    Ideal.hostDivf_def]
  rfl

end Stages

/-- The reference program's result array is the specification's result array: every index is (b, q, d) for its three
    coordinates, and there the last stage is `out b q d`. -/
theorem ref_eq_spec (x0 x1 : (⟨S8x2048x1024, .f32⟩ : BufTy).Contents (Elt Ideal))
    (x2 : (⟨S8x2048x2048, .i32⟩ : BufTy).Contents (Elt Ideal))
    (x3 : (⟨S1024x1024, .f32⟩ : BufTy).Contents (Elt Ideal))
    (x4 : (⟨S1024, .f32⟩ : BufTy).Contents (Elt Ideal)) :
    Cert.ReferenceIdeal.Read.val_main_v22 (F := Ideal) x0 x1 x2 x3 x4 = Cert.AttnSpec.outArr x0 x1 x2 x3 x4 := by
  funext i
  obtain ⟨b, q, d, rfl⟩ : ∃ (b : Fin 8) (q : Fin 2048) (d : Fin 1024), i = ix3 b q d := ⟨i 0, i 1, i 2, eq_ix3 i⟩
  rw [out_stage]
  rfl

end Cert.RefAttn

end
-- ==== Proof.FiniteArgs.lean ====
/-
  From the precondition to real entries.

  The precondition is the conjunction, over the four float argument arrays, of "every entry x has |x| < +∞",
  each conjunct an `and`-reduction over all axes of the entrywise comparison, started from 1.
  On the extended reals |x| is max x (−x), which is +∞ at both infinities; so |x| < +∞ holds exactly when
  x is a real number. Hence: if the precondition evaluates to 1, every entry of the four float arrays is real.
  (The integer array, the mask, is not constrained.)
-/
import proofs.«140894_j29884382446446_2_alg».proof.Pre_finite_inputs
import Idealize.ShloMosaic.PureOps.Ideal
import Idealize.ShloMosaic.PureOps.Ideal.Laws
import Idealize.ShloMosaic.Lib.ValueIdx
import Idealize.ShloMosaic.Lib.ReduceAll

namespace Cert.FiniteArgs

open Idealize.ShloMosaic Cert.Pre_finite_inputs

/-- The rank-0 shape has exactly one index. -/
instance subsingleton_scalarIdx : Subsingleton S_.Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (−x) is strictly below +∞ is a real number:
    at −∞ and at +∞ the absolute value is +∞, which is not below itself. -/
theorem real_of_abs_lt_top (x : EReal)
    (h : FloatOps.cmpf (F := Ideal) (φ := .f32) .olt (FloatOps.hostAbsf x) (Ideal.ofBits .f32 0x7F800000#32) = 1#1) :
    ∃ r : ℝ, x = (r : EReal) := by
  rw [inf_word] at h
  induction x using EReal.rec with
  | bot => simp [Ideal.cmpf_def, Ideal.absf_def, Ideal.cmp] at h
  | coe r => exact ⟨r, rfl⟩
  | top => simp [Ideal.cmpf_def, Ideal.absf_def, Ideal.cmp] at h

/-- If the precondition holds of five argument arrays, every entry of the four float arrays is a real number.
    The result word is a conjunction of four words; each is 1; each is an `and`-reduction over every axis,
    so each compared entry is 1; and a compared entry being 1 says the entry is real. -/
theorem real_of_pre [Facts] (a0 a1 : S8x2048x1024.Idx → EReal) (a2 : S8x2048x2048.Idx → BitVec 32)
    (a3 : S1024x1024.Idx → EReal) (a4 : S1024.Idx → EReal)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧
    (∀ i, ∃ r : ℝ, a3 i = (r : EReal)) ∧ (∀ i, ∃ r : ℝ, a4 i = (r : EReal)) := by
  have h0 := congrFun h ValueIdx.ix0
  dsimp only [fn, fn_part1] at h0
  obtain ⟨h123, e4⟩ := IntOp.andi_eq_one.1 h0
  obtain ⟨h12, e3⟩ := IntOp.andi_eq_one.1 h123
  obtain ⟨e0, e1⟩ := IntOp.andi_eq_one.1 h12
  refine ⟨fun i => ?_, fun i => ?_, fun i => ?_, fun i => ?_⟩
  · exact real_of_abs_lt_top (a0 i) (Host.reduce_andi_all _ _ _ _ _ e0 i)
  · exact real_of_abs_lt_top (a1 i) (Host.reduce_andi_all _ _ _ _ _ e1 i)
  · exact real_of_abs_lt_top (a3 i) (Host.reduce_andi_all _ _ _ _ _ e3 i)
  · exact real_of_abs_lt_top (a4 i) (Host.reduce_andi_all _ _ _ _ _ e4 i)

end Cert.FiniteArgs
-- ==== Proof.lean ====
/-
  Masked dot-product attention with a learned query projection, computed two ways, gives one array.

  The kernel tiles the work: for each batch and each block of 512 query rows it projects the block once, then visits
  the four blocks of 512 keys in turn, carrying a running row maximum, a running normaliser and a running weighted
  sum of the memories, rescaling the two sums by exp (old maximum − new maximum) on entering a block (the online form
  of softmax), and divides the weighted sum by the normaliser at the last block. The reference forms every score of a
  row, takes the row's maximum, exponentiates, normalises and averages the memories (the whole-row form).

  On the extended reals, with every operation exact, both end with the same array

      out[b, q, d] = Σ_k (w[b,q,k] / Σ_k w[b,q,k]) · mem[b,k,d],      w[b,q,k] = exp (logit[b,q,k] − max_k logit[b,q,k]),
      logit[b,q,k] = Σ_d (Σ_i query[b,q,i] · W[d,i] + bias[d]) · mem[b,k,d] + (1 − mask[b,q,k]) · (−10⁶),

  provided every float argument entry is a real number, which is what the precondition says. The reference is this
  function stage by stage, with no hypothesis. The kernel is this function by induction on the grid point for what
  its carried scratch holds, and because, for real scores and values, the online recurrence after the fourth block of
  keys is the softmax of the whole row — this is where the real entries are used. Both programs leave their
  arguments unchanged, and the kernel's reading on the extended reals rewrites none of its operations.
-/
import proofs.«140894_j29884382446446_2_alg».proof.Defs
import proofs.«140894_j29884382446446_2_alg».proof.Proof.Gen.Kernel
import proofs.«140894_j29884382446446_2_alg».proof.Proof.Gen.Kernel.Skeleton
import proofs.«140894_j29884382446446_2_alg».proof.Proof.Gen.Kernel.Launch
import proofs.«140894_j29884382446446_2_alg».proof.Proof.Gen.Kernel.Points
import proofs.«140894_j29884382446446_2_alg».proof.Proof.Gen.Kernel.Frame
import proofs.«140894_j29884382446446_2_alg».proof.Proof.Gen.KernelIdeal
import proofs.«140894_j29884382446446_2_alg».proof.Proof.Gen.KernelIdeal.Skeleton
import proofs.«140894_j29884382446446_2_alg».proof.Proof.Gen.KernelIdeal.Launch
import proofs.«140894_j29884382446446_2_alg».proof.Proof.Gen.KernelIdeal.Points
import proofs.«140894_j29884382446446_2_alg».proof.Proof.Gen.KernelIdeal.Frame
import proofs.«140894_j29884382446446_2_alg».proof.Proof.Gen.ReferenceIdeal
import proofs.«140894_j29884382446446_2_alg».proof.Proof.Gen.Pre_finite_inputs
import proofs.«140894_j29884382446446_2_alg».proof.Proof.Gen.KernelIdeal.Value
import proofs.«140894_j29884382446446_2_alg».proof.Proof.Gen.ReferenceIdeal.Run
import proofs.«140894_j29884382446446_2_alg».proof.Proof.Gen.ReferenceIdeal.Read
import proofs.«140894_j29884382446446_2_alg».proof.Proof.KernelValue
import proofs.«140894_j29884382446446_2_alg».proof.Proof.RefAttn
import proofs.«140894_j29884382446446_2_alg».proof.Proof.FiniteArgs
import Idealize.ShloMosaic.Adequacy
import Idealize.ShloMosaic.Init

noncomputable section

namespace Cert.Proof

open Idealize.ShloMosaic Idealize.SL.Sem

/-- The kernel as printed runs and leaves its arguments unchanged. -/
theorem frame_p : Cert.frame_Kernel := fun m ρ _ => Cert.Kernel.Gen.frame m ρ

/-- The kernel read on the extended reals runs and leaves its arguments unchanged. -/
theorem frame_pi : Cert.frame_KernelIdeal := fun m ρ _ => Cert.KernelIdeal.Gen.frame m ρ

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten: its reading on the extended reals is its own text. -/
theorem preserves : Cert.preserves_Kernel_KernelIdeal := trivial

/-- From arguments that agree and are finite, the kernel and the reference both end with the specification's array
    of the arguments: the kernel by its value theorem (which needs every float argument entry real, which the
    precondition gives), the reference stage by stage with no hypothesis. -/
theorem algebraic : Cert.algebraic_KernelIdeal_ReferenceIdeal := by
  intro m ρ m' ρ' hpre hagree
  refine ⟨_, Cert.KernelIdeal.AttnValue.run m ρ (fun c => Cert.FiniteArgs.real_of_pre _ _ _ _ _ (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefAttn.ref_eq_spec, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
